-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x16384 : Shape := ⟨2, ![16384, 16384]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  main_v18

def fn {F : FTy → Type} [FloatOps F] (main_arg0 : IVec S16384 32) (main_arg1 : FVec F S16384x16384 .f32) (main_arg2 : IVec S16384 32) (main_arg3 : FVec F S10000x64 .f32) (main_arg4 : FVec F S3x64x64 .f32) (main_arg5 : FVec F S3x64 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_v13 main_v16
-- ==== Kernel.lean ====
abbrev S16384 : Shape := ⟨1, ![16384]⟩
abbrev S16384x16384 : Shape := ⟨2, ![16384, 16384]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩
abbrev S16384x1 : Shape := ⟨2, ![16384, 1]⟩
abbrev S16384x64 : Shape := ⟨2, ![16384, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S256x16384 : Shape := ⟨2, ![256, 16384]⟩
abbrev S256x64 : Shape := ⟨2, ![256, 64]⟩

abbrev nBuf : Space → Nat
  | .hbm => 55
  | .vmem => 21
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S16384, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x64, .f32⟩
  | .hbm, ⟨15, _⟩ => ⟨S1x64x64, .f32⟩
  | .hbm, ⟨16, _⟩ => ⟨S64x64, .f32⟩
  | .hbm, ⟨17, _⟩ => ⟨S16384x64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S1x64x64, .f32⟩
  | .hbm, ⟨28, _⟩ => ⟨S64x64, .f32⟩
  | .hbm, ⟨29, _⟩ => ⟨S16384x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S16384x64, .f32⟩
  | .hbm, ⟨34, _⟩ => ⟨S16384x64, .f32⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S1x64x64, .f32⟩
  | .hbm, ⟨40, _⟩ => ⟨S64x64, .f32⟩
  | .hbm, ⟨41, _⟩ => ⟨S16384x64, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S16384x64, .f32⟩
  | .hbm, ⟨46, _⟩ => ⟨S16384x64, .f32⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S_, .f32⟩
  | .hbm, ⟨52, _⟩ => ⟨S256x64, .f32⟩
  | .hbm, ⟨53, _⟩ => ⟨S16384x1, .i32⟩
  | .hbm, ⟨54, _⟩ => ⟨S256x64, .f32⟩
  | .local _ .vmem, ⟨0, _⟩ => ⟨S256x16384, .f32⟩
  | .local _ .vmem, ⟨1, _⟩ => ⟨S256x16384, .f32⟩
  | .local _ .vmem, ⟨2, _⟩ => ⟨S16384x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x16384, .f32⟩
  | .local _ .vmem, ⟨8, _⟩ => ⟨S256x16384, .f32⟩
  | .local _ .vmem, ⟨9, _⟩ => ⟨S16384x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S256x16384, .f32⟩
  | .local _ .vmem, ⟨15, _⟩ => ⟨S256x16384, .f32⟩
  | .local _ .vmem, ⟨16, _⟩ => ⟨S16384x64, .f32⟩
  | .local _ .vmem, ⟨17, _⟩ => ⟨S256x64, .f32⟩
  | .local _ .vmem, ⟨18, _⟩ => ⟨S256x64, .f32⟩
  | .local _ .vmem, ⟨19, _⟩ => ⟨S256x64, .f32⟩
  | .local _ .vmem, ⟨20, _⟩ => ⟨S256x64, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call2_cst : Ref sig .tc := ⟨.hbm, 47, rfl⟩
abbrev main_call2_v0 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  inb_S256x16384_S256x16384_0_0 : ∀ a, (![0, 0] : Fin 2 → Nat) a + S256x16384.size a ≤ S256x16384.size a
  h_S256x16384 : 0 < S256x16384.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  gather_S10000x64_S16384x1_S16384x64_1_0_n_n_0_1_164_wf : GatherDims.WF S10000x64 S16384x1 S16384x64 [1] [0] [] [0] [] 1 ![1, 64]
  dot_S16384x64_S64x64_S16384x64_1_0_0_1_n_n_wf : DotDims.WF S16384x64 S64x64 S16384x64 [1] [0] [0] [1] [] []
  dot_S256x16384_S16384x64_S256x64_1_0_0_1_n_n_wf : DotDims.WF S256x16384 S16384x64 S256x64 [1] [0] [0] [1] [] []
  scatter_S256x64_S16384x1_S16384x64_1_0_0_1_wf : ScatterDims.WF S256x64 S16384x1 S16384x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x16384.size a ≤ S16384x16384.size a
  hwx1_0 : ∀ i : grid1.Coords, EltTy.bits .f32 = 32 ∨ (Rect.block (s := S16384x16384) S256x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S16384x64.size a
  hwx1_2 : ∀ i : grid1.Coords, EltTy.bits .f32 = 32 ∨ (Rect.block (s := S16384x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S16384x64.size a
  hwx1_3 : ∀ i : grid1.Coords, EltTy.bits .f32 = 32 ∨ (Rect.block (s := S16384x64) S256x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x16384.size a ≤ S16384x16384.size a
  hwx2_0 : ∀ i : grid2.Coords, EltTy.bits .f32 = 32 ∨ (Rect.block (s := S16384x16384) S256x16384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S16384x64.size a
  hwx2_1 : ∀ i : grid2.Coords, EltTy.bits .f32 = 32 ∨ (Rect.block (s := S16384x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S16384x64.size a
  hwx2_2 : ∀ i : grid2.Coords, EltTy.bits .f32 = 32 ∨ (Rect.block (s := S16384x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S16384x64.size a
  hwx2_3 : ∀ i : grid2.Coords, EltTy.bits .f32 = 32 ∨ (Rect.block (s := S16384x64) S256x64.size (cc2_transform_3 i) (hinb2_3 i)).WholeWords (EltTy.packing .f32)

variable [Facts₀]

def gather_S10000x64_S16384x1_S16384x64_1_0_n_n_0_1_164 : GatherDims S10000x64 S16384x1 S16384x64 where
  offsetDims := [1]
  collapsedSliceDims := [0]
  operandBatchingDims := []
  startIndicesBatchingDims := []
  startIndexMap := [0]
  indexVectorDim := 1
  sliceSizes := ![1, 64]
  wf := gather_S10000x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf
def scatter_S256x64_S16384x1_S16384x64_1_0_0_1 : ScatterDims S256x64 S16384x1 S16384x64 where
  updateWindowDims := [1]
  insertedWindowDims := [0]
  scatterDimsToOperandDims := [0]
  indexVectorDim := 1
  wf := scatter_S256x64_S16384x1_S16384x64_1_0_0_1_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S256x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S16384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S256x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S256x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384 : Shape := ⟨1, ![16384]⟩
abbrev S16384x16384 : Shape := ⟨2, ![16384, 16384]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩
abbrev S16384x1 : Shape := ⟨2, ![16384, 1]⟩
abbrev S16384x64 : Shape := ⟨2, ![16384, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S256x64 : Shape := ⟨2, ![256, 64]⟩

abbrev nBuf : Space → Nat
  | .hbm => 58
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S16384, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x64, .f32⟩
  | .hbm, ⟨15, _⟩ => ⟨S1x64x64, .f32⟩
  | .hbm, ⟨16, _⟩ => ⟨S64x64, .f32⟩
  | .hbm, ⟨17, _⟩ => ⟨S16384x64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S1x64x64, .f32⟩
  | .hbm, ⟨29, _⟩ => ⟨S64x64, .f32⟩
  | .hbm, ⟨30, _⟩ => ⟨S16384x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S16384x64, .f32⟩
  | .hbm, ⟨35, _⟩ => ⟨S16384x64, .f32⟩
  | .hbm, ⟨36, _⟩ => ⟨S_, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S16384x64, .f32⟩
  | .hbm, ⟨41, _⟩ => ⟨S1x64x64, .f32⟩
  | .hbm, ⟨42, _⟩ => ⟨S64x64, .f32⟩
  | .hbm, ⟨43, _⟩ => ⟨S16384x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S16384x64, .f32⟩
  | .hbm, ⟨48, _⟩ => ⟨S16384x64, .f32⟩
  | .hbm, ⟨49, _⟩ => ⟨S_, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S_, .f32⟩
  | .hbm, ⟨55, _⟩ => ⟨S256x64, .f32⟩
  | .hbm, ⟨56, _⟩ => ⟨S16384x1, .i32⟩
  | .hbm, ⟨57, _⟩ => ⟨S256x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call2_cst : Ref sig .tc := ⟨.hbm, 49, rfl⟩
abbrev main_call2_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  gather_S10000x64_S16384x1_S16384x64_1_0_n_n_0_1_164_wf : GatherDims.WF S10000x64 S16384x1 S16384x64 [1] [0] [] [0] [] 1 ![1, 64]
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  scatter_S256x64_S16384x1_S16384x64_1_0_0_1_wf : ScatterDims.WF S256x64 S16384x1 S16384x64 [1] [0] [0] 1

variable [Facts₀]

def gather_S10000x64_S16384x1_S16384x64_1_0_n_n_0_1_164 : GatherDims S10000x64 S16384x1 S16384x64 where
  offsetDims := [1]
  collapsedSliceDims := [0]
  operandBatchingDims := []
  startIndicesBatchingDims := []
  startIndexMap := [0]
  indexVectorDim := 1
  sliceSizes := ![1, 64]
  wf := gather_S10000x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def scatter_S256x64_S16384x1_S16384x64_1_0_0_1 : ScatterDims S256x64 S16384x1 S16384x64 where
  updateWindowDims := [1]
  insertedWindowDims := [0]
  scatterDimsToOperandDims := [0]
  indexVectorDim := 1
  wf := scatter_S256x64_S16384x1_S16384x64_1_0_0_1_wf

class Facts : Prop extends Facts₀ where

variable [Facts]
-- ==== Proof.KBody0.lean ====
/-
  Region 0 of the word-level kernel: one row tile of `x = h + A · h`.

  At grid point `t` the body is handed rows `256·t … 256·t + 255` of the adjacency matrix `A` (window 0), the whole of
  `h` (window 1, resident: fetched once, at the first point), rows `256·t … 256·t + 255` of `h` again (window 2) and an
  output tile of the same rows (window 3). It stores into the output tile the tile of `h` plus the product of the
  tile of `A` with all of `h`. Windows 1 and 2 read ONE array, so the core holds that array in two halves of the full
  share, one per window; the adjacency matrix and the output array are held whole.

  Stated here at a parameter `V`, the contents of the core's buffers when the region is entered: each window's block
  at a point, what the store leaves in the output tile, the body's triple, the region's proof data and the body
  obligation at every point.
-/
import proofs.«110072_j3049426780241_2_alg».proof.Proof.Gen.Kernel.Launch
import proofs.«110072_j3049426780241_2_alg».proof.Proof.Gen.Kernel.Skeleton
import proofs.«110072_j3049426780241_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of `A` is in its staging buffer at every point, for any proof data that reads the array off `V` and whose
    body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of `h` is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The tile of `h` is in its staging buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole of a staging buffer -/

abbrev rA0 : Rect S256x16384 := Rect.unit (s := S256x16384) ![0, 0] S256x16384.size inb_S256x16384_S256x16384_0_0
abbrev rH0 : Rect S16384x64 := Rect.unit (s := S16384x64) ![0, 0] S16384x64.size inb_S16384x64_S16384x64_0_0
abbrev rT0 : Rect S256x64 := Rect.unit (s := S256x64) ![0, 0] S256x64.size inb_S256x64_S256x64_0_0

/-! ## What the body leaves in the output tile -/

/-- The output tile after the body, from the three input blocks: its one store, of the tile of `h` plus the tile of
    `A` times `h`. -/
def out0_3 (x0 : Vec F S256x16384 .f32) (x1 : Vec F S16384x64 .f32) (x2 : Vec F S256x64 .f32) : Vec F S256x64 .f32 :=
  View.canon [⟨rT0, k0_pay1 (View.ld x0 rA0) (View.ld x1 rH0) (View.ld x2 rT0)⟩]

/-- The one store covers the tile. -/
theorem cover0_3 (p0 : Vec F S256x64 .f32) (y : S256x64.Idx) :
    ∃ pc ∈ ([⟨rT0, p0⟩] : List (View.Piece (Elt F) S256x64 .f32)), y ∈ pc.1.set :=
  View.cover_of_tiled [⟨rT0, p0⟩] S256x64.size (by rfl) y

/-! ## The body's triple -/

set_option maxHeartbeats 1000000 in
/-- The body on whole staging memrefs, the inputs' at contents `x0`, `x1`, `x2` and the output's at anything, runs to
    the continuation holding the inputs' as they were and the output's at `out0_3` of them. -/
theorem sound_kernel0 (c : Dev nD) (E : Set ℕ) (i : grid0.Coords)
    (arg1 : Memref sig .tc .vmem S256x16384 .f32) (harg1 : arg1.IsWhole) (arg2 : Memref sig .tc .vmem S16384x64 .f32) (harg2 : arg2.IsWhole)
    (arg3 : Memref sig .tc .vmem S256x64 .f32) (harg3 : arg3.IsWhole) (arg4 : Memref sig .tc .vmem S256x64 .f32) (harg4 : arg4.IsWhole)
    (x0 : Vec F S256x16384 .f32) (x1 : Vec F S16384x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__adj_residual_kernel i arg1 harg1 arg2 harg2 arg3 harg3 arg4 harg4) K := by
  simp only [cc0__adj_residual_kernel_eq_skeleton]; unfold cc0__adj_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of region 0 on core `c`: the arrays as the region finds them; after the body at point `t` each input's
    buffer still at its block and the output tile at `out0_3` of the input blocks; the invariant the scoped rest and the
    generator register, untouched; nothing owed; the adjacency matrix held whole and the array both `h` windows read held in
    two halves, the left half for the resident window and the right half for the tile. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Adj

end
-- ==== Proof.KSeg0.lean ====
/-
  Region 0: the core's buffers into the region's arrays and back.

  The region's four windows sit on THREE buffers: the adjacency matrix (window 0), `h` (windows 1 and 2) and the output
  (window 3). On entry the buffer behind `h`, held whole, is split into the two halves of the full share, one per window;
  on exit the halves — both still at the contents the region found, since an input is never written — are joined again,
  and the output's buffer holds what the write-backs of all 64 points left.
-/
import proofs.«110072_j3049426780241_2_alg».proof.Proof.KBody0

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the adjacency matrix and the output held whole, `h` in two halves. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_v15) ↦{fullShare.left} G 1)
          ∗ (((c : Thread nD τ).loc main_v15) ↦{fullShare.right} G 2) ∗ (((c : Thread nD τ).loc main_v16) ↦{fullShare} G 3)) := by
  unfold Dat.arrays
  rw [bigSep_W0]
  rw [(arr_whole0 0).set_eq_univ, (arr_whole0 1).set_eq_univ, (arr_whole0 3).set_eq_univ]
  rfl

/-- The three distinct buffers behind the four windows, each whole. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg1) ↦{fullShare} Vc main_arg1) ∗ (((c : Thread nD τ).loc main_v15) ↦{fullShare} Vc main_v15)
          ∗ (((c : Thread nD τ).loc main_v16) ↦{fullShare} Vc main_v16)) := by
  unfold Pipeline.arrBufs
  rw [bigSep_eq_bigSepL_of_eq [main_arg1, main_v15, main_v16] (by decide) (by decide)]
  rfl

/-- An input array ends the region as it was found. -/
theorem arrAt0_0 (c : Dev nD) (n : Nat) : (dat0 V c).arrAt 0 n = V c main_arg1 := ((dat0 V c).arrAt_in 0 rfl n).trans (A_eq0 V c 0)
theorem arrAt0_1 (c : Dev nD) (n : Nat) : (dat0 V c).arrAt 1 n = V c main_v15 := ((dat0 V c).arrAt_in 1 rfl n).trans (A_eq0 V c 1)
theorem arrAt0_2 (c : Dev nD) (n : Nat) : (dat0 V c).arrAt 2 n = V c main_v15 := ((dat0 V c).arrAt_in 2 rfl n).trans (A_eq0 V c 2)

/-- ENTRY: the core's unscoped buffers at `V` are the region's arrays at their entry contents — the buffer behind `h`
    split into its two halves — and every other unscoped buffer. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have hs : (unscopedBufs (Ix := Unit) (Name := ℕ) (U := UR sig nD τ) (Lvl := ℕ) c (V c) : sProp 𝕄)
      = iprop(Pipeline.arrBufs spec0 c (V c) ∗ Pipeline.unscopedRest spec0 c (V c)) :=
    Pipeline.unscopedBufs_split₀ cfgs 0 winFacts₀0.arr_unscoped c (V c)
  rw [hs, arrBufs0_eq, arrays0_eq]
  iintro ⟨⟨Ha, Hh, Ho⟩, Hrest⟩
  ihave Hh2 := (pointsTo_share (PosShare.mem_left_op_right fullShare)).1 $$ Hh
  icases Hh2 with ⟨Hl, Hr⟩
  isplitr [Hrest]
  · isplitl [Ha]; · iexact Ha
    isplitl [Hl]; · iexact Hl
    isplitl [Hr]; · iexact Hr
    iexact Ho
  iexact Hrest

/-- EXIT: the region's arrays at their final contents — the two halves of `h` joined — and every other unscoped buffer as
    found are the core's unscoped buffers at any contents `V'` that have the output at what the write-backs left and
    agree with `V` elsewhere. -/
theorem exit0 (c : Dev nD) (V' : (b : Ref sig .tc) → Buf (Elt F) ((c : Thread nD τ).loc b))
    (hout : V' main_v16 = (dat0 V c).arrAt 3 cfg0.N) (hrest : ∀ b, b ≠ main_v16 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec0 c V' ∗ Pipeline.unscopedRest spec0 c V') :=
    Pipeline.unscopedBufs_split₀ cfgs 0 winFacts₀0.arr_unscoped c V'
  rw [hs, arrBufs0_eq, arrays0_eq,
    arrAt0_0, arrAt0_1, arrAt0_2, hrest main_arg1 (by decide), hrest main_v15 (by decide), hout]
  have hR : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b fun e => (Finset.mem_sdiff.mp hb).2 (e ▸ Finset.mem_image.mpr ⟨3, Finset.mem_univ _, rfl⟩)]
  rw [hR]
  iintro ⟨⟨Ha, Hl, Hr, Ho⟩, Hrest⟩
  isplitr [Hrest]
  · isplitl [Ha]; · iexact Ha
    isplitr [Ho]
    · iapply (pointsTo_share (PosShare.mem_left_op_right fullShare)).2
      isplitl [Hl]; · iexact Hl
      iexact Hr
    iexact Ho
  iexact Hrest

end Cert.Kernel.Adj

end
-- ==== Proof.KBody1.lean ====
/-
  Region 1 of the word-level kernel: one row tile of `x = h + A · h`.

  At grid point `t` the body is handed rows `256·t … 256·t + 255` of the adjacency matrix `A` (window 0), the whole of
  `h` (window 1, resident: fetched once, at the first point), rows `256·t … 256·t + 255` of `h` again (window 2) and an
  output tile of the same rows (window 3). It stores into the output tile the tile of `h` plus the product of the
  tile of `A` with all of `h`. Windows 1 and 2 read ONE array, so the core holds that array in two halves of the full
  share, one per window; the adjacency matrix and the output array are held whole.

  Stated here at a parameter `V`, the contents of the core's buffers when the region is entered: each window's block
  at a point, what the store leaves in the output tile, the body's triple, the region's proof data and the body
  obligation at every point.
-/
import proofs.«110072_j3049426780241_2_alg».proof.Proof.Gen.Kernel.Launch
import proofs.«110072_j3049426780241_2_alg».proof.Proof.Gen.Kernel.Skeleton
import proofs.«110072_j3049426780241_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of `A` is in its staging buffer at every point, for any proof data that reads the array off `V` and whose
    body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole of `h` is in its staging buffer at every point: fetched at the first, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The tile of `h` is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole of a staging buffer -/

abbrev rA1 : Rect S256x16384 := Rect.unit (s := S256x16384) ![0, 0] S256x16384.size inb_S256x16384_S256x16384_0_0
abbrev rH1 : Rect S16384x64 := Rect.unit (s := S16384x64) ![0, 0] S16384x64.size inb_S16384x64_S16384x64_0_0
abbrev rT1 : Rect S256x64 := Rect.unit (s := S256x64) ![0, 0] S256x64.size inb_S256x64_S256x64_0_0

/-! ## What the body leaves in the output tile -/

/-- The output tile after the body, from the three input blocks: its one store, of the tile of `h` plus the tile of
    `A` times `h`. -/
def out1_3 (x0 : Vec F S256x16384 .f32) (x1 : Vec F S16384x64 .f32) (x2 : Vec F S256x64 .f32) : Vec F S256x64 .f32 :=
  View.canon [⟨rT1, k1_pay1 (View.ld x0 rA1) (View.ld x1 rH1) (View.ld x2 rT1)⟩]

/-- The one store covers the tile. -/
theorem cover1_3 (p0 : Vec F S256x64 .f32) (y : S256x64.Idx) :
    ∃ pc ∈ ([⟨rT1, p0⟩] : List (View.Piece (Elt F) S256x64 .f32)), y ∈ pc.1.set :=
  View.cover_of_tiled [⟨rT1, p0⟩] S256x64.size (by rfl) y

/-! ## The body's triple -/

set_option maxHeartbeats 1000000 in
/-- The body on whole staging memrefs, the inputs' at contents `x0`, `x1`, `x2` and the output's at anything, runs to
    the continuation holding the inputs' as they were and the output's at `out1_3` of them. -/
theorem sound_kernel1 (c : Dev nD) (E : Set ℕ) (i : grid1.Coords)
    (arg1 : Memref sig .tc .vmem S256x16384 .f32) (harg1 : arg1.IsWhole) (arg2 : Memref sig .tc .vmem S16384x64 .f32) (harg2 : arg2.IsWhole)
    (arg3 : Memref sig .tc .vmem S256x64 .f32) (harg3 : arg3.IsWhole) (arg4 : Memref sig .tc .vmem S256x64 .f32) (harg4 : arg4.IsWhole)
    (x0 : Vec F S256x16384 .f32) (x1 : Vec F S16384x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__adj_residual_kernel i arg1 harg1 arg2 harg2 arg3 harg3 arg4 harg4) K := by
  simp only [cc1__adj_residual_kernel_eq_skeleton]; unfold cc1__adj_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of region 1 on core `c`: the arrays as the region finds them; after the body at point `t` each input's
    buffer still at its block and the output tile at `out1_3` of the input blocks; the invariant the scoped rest and the
    generator register, untouched; nothing owed; the adjacency matrix held whole and the array both `h` windows read held in
    two halves, the left half for the resident window and the right half for the tile. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Adj

end
-- ==== Proof.KSeg1.lean ====
/-
  Region 1: the core's buffers into the region's arrays and back.

  The region's four windows sit on THREE buffers: the adjacency matrix (window 0), `h` (windows 1 and 2) and the output
  (window 3). On entry the buffer behind `h`, held whole, is split into the two halves of the full share, one per window;
  on exit the halves — both still at the contents the region found, since an input is never written — are joined again,
  and the output's buffer holds what the write-backs of all 64 points left.
-/
import proofs.«110072_j3049426780241_2_alg».proof.Proof.KBody1

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the adjacency matrix and the output held whole, `h` in two halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v25) ↦{fullShare.left} G 1)
          ∗ (((c : Thread nD τ).loc main_v25) ↦{fullShare.right} G 2) ∗ (((c : Thread nD τ).loc main_v26) ↦{fullShare} G 3)) := by
  unfold Dat.arrays
  rw [bigSep_W1]
  rw [(arr_whole1 0).set_eq_univ, (arr_whole1 1).set_eq_univ, (arr_whole1 3).set_eq_univ]
  rfl

/-- The three distinct buffers behind the four windows, each whole. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg1) ↦{fullShare} Vc main_arg1) ∗ (((c : Thread nD τ).loc main_v25) ↦{fullShare} Vc main_v25)
          ∗ (((c : Thread nD τ).loc main_v26) ↦{fullShare} Vc main_v26)) := by
  unfold Pipeline.arrBufs
  rw [bigSep_eq_bigSepL_of_eq [main_arg1, main_v25, main_v26] (by decide) (by decide)]
  rfl

/-- An input array ends the region as it was found. -/
theorem arrAt1_0 (c : Dev nD) (n : Nat) : (dat1 V c).arrAt 0 n = V c main_arg1 := ((dat1 V c).arrAt_in 0 rfl n).trans (A_eq1 V c 0)
theorem arrAt1_1 (c : Dev nD) (n : Nat) : (dat1 V c).arrAt 1 n = V c main_v25 := ((dat1 V c).arrAt_in 1 rfl n).trans (A_eq1 V c 1)
theorem arrAt1_2 (c : Dev nD) (n : Nat) : (dat1 V c).arrAt 2 n = V c main_v25 := ((dat1 V c).arrAt_in 2 rfl n).trans (A_eq1 V c 2)

/-- ENTRY: the core's unscoped buffers at `V` are the region's arrays at their entry contents — the buffer behind `h`
    split into its two halves — and every other unscoped buffer. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs (Ix := Unit) (Name := ℕ) (U := UR sig nD τ) (Lvl := ℕ) c (V c) : sProp 𝕄)
      = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨Ha, Hh, Ho⟩, Hrest⟩
  ihave Hh2 := (pointsTo_share (PosShare.mem_left_op_right fullShare)).1 $$ Hh
  icases Hh2 with ⟨Hl, Hr⟩
  isplitr [Hrest]
  · isplitl [Ha]; · iexact Ha
    isplitl [Hl]; · iexact Hl
    isplitl [Hr]; · iexact Hr
    iexact Ho
  iexact Hrest

/-- EXIT: the region's arrays at their final contents — the two halves of `h` joined — and every other unscoped buffer as
    found are the core's unscoped buffers at any contents `V'` that have the output at what the write-backs left and
    agree with `V` elsewhere. -/
theorem exit1 (c : Dev nD) (V' : (b : Ref sig .tc) → Buf (Elt F) ((c : Thread nD τ).loc b))
    (hout : V' main_v26 = (dat1 V c).arrAt 3 cfg1.N) (hrest : ∀ b, b ≠ main_v26 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [hs, arrBufs1_eq, arrays1_eq,
    arrAt1_0, arrAt1_1, arrAt1_2, hrest main_arg1 (by decide), hrest main_v25 (by decide), hout]
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b fun e => (Finset.mem_sdiff.mp hb).2 (e ▸ Finset.mem_image.mpr ⟨3, Finset.mem_univ _, rfl⟩)]
  rw [hR]
  iintro ⟨⟨Ha, Hl, Hr, Ho⟩, Hrest⟩
  isplitr [Hrest]
  · isplitl [Ha]; · iexact Ha
    isplitr [Ho]
    · iapply (pointsTo_share (PosShare.mem_left_op_right fullShare)).2
      isplitl [Hl]; · iexact Hl
      iexact Hr
    iexact Ho
  iexact Hrest

end Cert.Kernel.Adj

end
-- ==== Proof.KBody2.lean ====
/-
  Region 2 of the word-level kernel: one row tile of `x = h + A · h`.

  At grid point `t` the body is handed rows `256·t … 256·t + 255` of the adjacency matrix `A` (window 0), the whole of
  `h` (window 1, resident: fetched once, at the first point), rows `256·t … 256·t + 255` of `h` again (window 2) and an
  output tile of the same rows (window 3). It stores into the output tile the tile of `h` plus the product of the
  tile of `A` with all of `h`. Windows 1 and 2 read ONE array, so the core holds that array in two halves of the full
  share, one per window; the adjacency matrix and the output array are held whole.

  Stated here at a parameter `V`, the contents of the core's buffers when the region is entered: each window's block
  at a point, what the store leaves in the output tile, the body's triple, the region's proof data and the body
  obligation at every point.
-/
import proofs.«110072_j3049426780241_2_alg».proof.Proof.Gen.Kernel.Launch
import proofs.«110072_j3049426780241_2_alg».proof.Proof.Gen.Kernel.Skeleton
import proofs.«110072_j3049426780241_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile of `A` is in its staging buffer at every point, for any proof data that reads the array off `V` and whose
    body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole of `h` is in its staging buffer at every point: fetched at the first, and its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The tile of `h` is in its staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole of a staging buffer -/

abbrev rA2 : Rect S256x16384 := Rect.unit (s := S256x16384) ![0, 0] S256x16384.size inb_S256x16384_S256x16384_0_0
abbrev rH2 : Rect S16384x64 := Rect.unit (s := S16384x64) ![0, 0] S16384x64.size inb_S16384x64_S16384x64_0_0
abbrev rT2 : Rect S256x64 := Rect.unit (s := S256x64) ![0, 0] S256x64.size inb_S256x64_S256x64_0_0

/-! ## What the body leaves in the output tile -/

/-- The output tile after the body, from the three input blocks: its one store, of the tile of `h` plus the tile of
    `A` times `h`. -/
def out2_3 (x0 : Vec F S256x16384 .f32) (x1 : Vec F S16384x64 .f32) (x2 : Vec F S256x64 .f32) : Vec F S256x64 .f32 :=
  View.canon [⟨rT2, k2_pay1 (View.ld x0 rA2) (View.ld x1 rH2) (View.ld x2 rT2)⟩]

/-- The one store covers the tile. -/
theorem cover2_3 (p0 : Vec F S256x64 .f32) (y : S256x64.Idx) :
    ∃ pc ∈ ([⟨rT2, p0⟩] : List (View.Piece (Elt F) S256x64 .f32)), y ∈ pc.1.set :=
  View.cover_of_tiled [⟨rT2, p0⟩] S256x64.size (by rfl) y

/-! ## The body's triple -/

set_option maxHeartbeats 1000000 in
/-- The body on whole staging memrefs, the inputs' at contents `x0`, `x1`, `x2` and the output's at anything, runs to
    the continuation holding the inputs' as they were and the output's at `out2_3` of them. -/
theorem sound_kernel2 (c : Dev nD) (E : Set ℕ) (i : grid2.Coords)
    (arg1 : Memref sig .tc .vmem S256x16384 .f32) (harg1 : arg1.IsWhole) (arg2 : Memref sig .tc .vmem S16384x64 .f32) (harg2 : arg2.IsWhole)
    (arg3 : Memref sig .tc .vmem S256x64 .f32) (harg3 : arg3.IsWhole) (arg4 : Memref sig .tc .vmem S256x64 .f32) (harg4 : arg4.IsWhole)
    (x0 : Vec F S256x16384 .f32) (x1 : Vec F S16384x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__adj_residual_kernel i arg1 harg1 arg2 harg2 arg3 harg3 arg4 harg4) K := by
  simp only [cc2__adj_residual_kernel_eq_skeleton]; unfold cc2__adj_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of region 2 on core `c`: the arrays as the region finds them; after the body at point `t` each input's
    buffer still at its block and the output tile at `out2_3` of the input blocks; the invariant the scoped rest and the
    generator register, untouched; nothing owed; the adjacency matrix held whole and the array both `h` windows read held in
    two halves, the left half for the resident window and the right half for the tile. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare
    | ⟨1, _⟩ => fullShare.left
    | ⟨2, _⟩ => fullShare.right
    | ⟨3, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Adj

end
-- ==== Proof.KSeg2.lean ====
/-
  Region 2: the core's buffers into the region's arrays and back.

  The region's four windows sit on THREE buffers: the adjacency matrix (window 0), `h` (windows 1 and 2) and the output
  (window 3). On entry the buffer behind `h`, held whole, is split into the two halves of the full share, one per window;
  on exit the halves — both still at the contents the region found, since an input is never written — are joined again,
  and the output's buffer holds what the write-backs of all 64 points left.
-/
import proofs.«110072_j3049426780241_2_alg».proof.Proof.KBody2

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the adjacency matrix and the output held whole, `h` in two halves. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v35) ↦{fullShare.left} G 1)
          ∗ (((c : Thread nD τ).loc main_v35) ↦{fullShare.right} G 2) ∗ (((c : Thread nD τ).loc main_v36) ↦{fullShare} G 3)) := by
  unfold Dat.arrays
  rw [bigSep_W2]
  rw [(arr_whole2 0).set_eq_univ, (arr_whole2 1).set_eq_univ, (arr_whole2 3).set_eq_univ]
  rfl

/-- The three distinct buffers behind the four windows, each whole. -/
theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_arg1) ↦{fullShare} Vc main_arg1) ∗ (((c : Thread nD τ).loc main_v35) ↦{fullShare} Vc main_v35)
          ∗ (((c : Thread nD τ).loc main_v36) ↦{fullShare} Vc main_v36)) := by
  unfold Pipeline.arrBufs
  rw [bigSep_eq_bigSepL_of_eq [main_arg1, main_v35, main_v36] (by decide) (by decide)]
  rfl

/-- An input array ends the region as it was found. -/
theorem arrAt2_0 (c : Dev nD) (n : Nat) : (dat2 V c).arrAt 0 n = V c main_arg1 := ((dat2 V c).arrAt_in 0 rfl n).trans (A_eq2 V c 0)
theorem arrAt2_1 (c : Dev nD) (n : Nat) : (dat2 V c).arrAt 1 n = V c main_v35 := ((dat2 V c).arrAt_in 1 rfl n).trans (A_eq2 V c 1)
theorem arrAt2_2 (c : Dev nD) (n : Nat) : (dat2 V c).arrAt 2 n = V c main_v35 := ((dat2 V c).arrAt_in 2 rfl n).trans (A_eq2 V c 2)

/-- ENTRY: the core's unscoped buffers at `V` are the region's arrays at their entry contents — the buffer behind `h`
    split into its two halves — and every other unscoped buffer. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  have hs : (unscopedBufs (Ix := Unit) (Name := ℕ) (U := UR sig nD τ) (Lvl := ℕ) c (V c) : sProp 𝕄)
      = iprop(Pipeline.arrBufs spec2 c (V c) ∗ Pipeline.unscopedRest spec2 c (V c)) :=
    Pipeline.unscopedBufs_split₀ cfgs 2 winFacts₀2.arr_unscoped c (V c)
  rw [hs, arrBufs2_eq, arrays2_eq]
  iintro ⟨⟨Ha, Hh, Ho⟩, Hrest⟩
  ihave Hh2 := (pointsTo_share (PosShare.mem_left_op_right fullShare)).1 $$ Hh
  icases Hh2 with ⟨Hl, Hr⟩
  isplitr [Hrest]
  · isplitl [Ha]; · iexact Ha
    isplitl [Hl]; · iexact Hl
    isplitl [Hr]; · iexact Hr
    iexact Ho
  iexact Hrest

/-- EXIT: the region's arrays at their final contents — the two halves of `h` joined — and every other unscoped buffer as
    found are the core's unscoped buffers at any contents `V'` that have the output at what the write-backs left and
    agree with `V` elsewhere. -/
theorem exit2 (c : Dev nD) (V' : (b : Ref sig .tc) → Buf (Elt F) ((c : Thread nD τ).loc b))
    (hout : V' main_v36 = (dat2 V c).arrAt 3 cfg2.N) (hrest : ∀ b, b ≠ main_v36 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec2 c V' ∗ Pipeline.unscopedRest spec2 c V') :=
    Pipeline.unscopedBufs_split₀ cfgs 2 winFacts₀2.arr_unscoped c V'
  rw [hs, arrBufs2_eq, arrays2_eq,
    arrAt2_0, arrAt2_1, arrAt2_2, hrest main_arg1 (by decide), hrest main_v35 (by decide), hout]
  have hR : (Pipeline.unscopedRest (Ix := Unit) (Name := ℕ) (U := UR sig nD τ) (Lvl := ℕ) spec2 c V' : sProp 𝕄)
      = Pipeline.unscopedRest spec2 c (V c) := by
    unfold Pipeline.unscopedRest
    exact bigSep_congr fun b hb => by
      rw [hrest b fun e => (Finset.mem_sdiff.mp hb).2 (e ▸ Finset.mem_image.mpr ⟨3, Finset.mem_univ _, rfl⟩)]
  rw [hR]
  iintro ⟨⟨Ha, Hl, Hr, Ho⟩, Hrest⟩
  isplitr [Hrest]
  · isplitl [Ha]; · iexact Ha
    isplitr [Ho]
    · iapply (pointsTo_share (PosShare.mem_left_op_right fullShare)).2
      isplitl [Hl]; · iexact Hl
      iexact Hr
    iexact Ho
  iexact Hrest

end Cert.Kernel.Adj

end
-- ==== Proof.KRun.lean ====
/-
  The word-level kernel's run: @main as ten segments — seven stretches of host operations and the three `x = h + A · h`
  regions — from the launch to the return.

  Between two segments the core holds every unscoped buffer whole. The contents at each boundary are a fold from the
  launch memory: a host stretch applies its operations; a region leaves every buffer as found except its output array,
  which ends holding what the write-backs of all 64 points left. Each region's proof data is taken at its own entry
  contents, so the second region reads the first one's output through the host operations between them, and the third
  the second's.
-/
import proofs.«110072_j3049426780241_2_alg».proof.Proof.KSeg0
import proofs.«110072_j3049426780241_2_alg».proof.Proof.KSeg1
import proofs.«110072_j3049426780241_2_alg».proof.Proof.KSeg2
import proofs.«110072_j3049426780241_2_alg».proof.Proof.Gen.Kernel.Regions

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Region 0's entry contents: the launch memory after the first two host stretches. -/
abbrev Va0 : (c : Dev nD) → (b : Ref sig .tc) → Buf (Elt F) ((c : Thread nD τ).loc b) := fun c b => V2 m c b
/-- After region 0: its output array at what the write-backs left. -/
def W3 (c : Dev nD) : Valuation τ sig (Elt F) := Function.update (V2 m c) main_v16 ((dat0 (Va0 m) c).arrAt 3 cfg0.N)
abbrev W4 (c : Dev nD) : Valuation τ sig (Elt F) := StableHlo.after hostOps1 (W3 m c)
abbrev W5 (c : Dev nD) : Valuation τ sig (Elt F) := StableHlo.after hostOps1_1 (W4 m c)
/-- Region 1's entry contents. -/
abbrev Va1 : (c : Dev nD) → (b : Ref sig .tc) → Buf (Elt F) ((c : Thread nD τ).loc b) := fun c b => W5 m c b
/-- After region 1. -/
def W6 (c : Dev nD) : Valuation τ sig (Elt F) := Function.update (W5 m c) main_v26 ((dat1 (Va1 m) c).arrAt 3 cfg1.N)
abbrev W7 (c : Dev nD) : Valuation τ sig (Elt F) := StableHlo.after hostOps2 (W6 m c)
abbrev W8 (c : Dev nD) : Valuation τ sig (Elt F) := StableHlo.after hostOps2_1 (W7 m c)
/-- Region 2's entry contents. -/
abbrev Va2 : (c : Dev nD) → (b : Ref sig .tc) → Buf (Elt F) ((c : Thread nD τ).loc b) := fun c b => W8 m c b
/-- After region 2. -/
def W9 (c : Dev nD) : Valuation τ sig (Elt F) := Function.update (W8 m c) main_v36 ((dat2 (Va2 m) c).arrAt 3 cfg2.N)
/-- At the return. -/
abbrev W10 (c : Dev nD) : Valuation τ sig (Elt F) := StableHlo.after hostOps3 (W9 m c)

/-- What each region leaves in its output array, as the unknowns the segments' boundary contents are written over:
    read only at the three regions' exits. -/
def outs : Outs (F := F) := fun J r c =>
  match J with
  | 3 => W3 m c r
  | 6 => W6 m c r
  | 9 => W9 m c r
  | _ => V2 m c r

theorem V3_eq (c : Dev nD) : V3 m (outs m) c = W3 m c := by
  show Function.update (V2 m c) main_v16 (W3 m c main_v16) = W3 m c
  unfold W3; rw [Function.update_self]
theorem V5_eq (c : Dev nD) : V5 m (outs m) c = W5 m c := by
  show StableHlo.after hostOps1_1 (StableHlo.after hostOps1 (V3 m (outs m) c)) = _
  rw [V3_eq]
theorem V6_eq (c : Dev nD) : V6 m (outs m) c = W6 m c := by
  show Function.update (V5 m (outs m) c) main_v26 (W6 m c main_v26) = W6 m c
  rw [V5_eq]; unfold W6; rw [Function.update_self]
theorem V8_eq (c : Dev nD) : V8 m (outs m) c = W8 m c := by
  show StableHlo.after hostOps2_1 (StableHlo.after hostOps2 (V6 m (outs m) c)) = _
  rw [V6_eq]
theorem V9_eq (c : Dev nD) : V9 m (outs m) c = W9 m c := by
  show Function.update (V8 m (outs m) c) main_v36 (W9 m c main_v36) = W9 m c
  rw [V8_eq]; unfold W9; rw [Function.update_self]
theorem V10_eq (c : Dev nD) : V10 m (outs m) c = W10 m c := by
  show StableHlo.after hostOps3 (V9 m (outs m) c) = _
  rw [V9_eq]

/-! ## The proof data family and what rides beside the buffers -/

/-- Every region's proof data, each at its own entry contents. -/
def pdats : (p : Fin 3) → (c : Dev nD) → Dat τ (Elt F) Unit ℕ (UR sig nD τ) ℕ (Pipeline.pin (pcfgs (F := F)) adm p) c
  | ⟨0, _⟩ => fun c => dat0 (Va0 m) c
  | ⟨1, _⟩ => fun c => dat1 (Va1 m) c
  | ⟨2, _⟩ => fun c => dat2 (Va2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at its entry contents, left with its output
    array at what the write-backs left and everything else as found. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Va0 m) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Va0 m c)
  hentry c := by
    rw [Pipeline.ownSems0_none]
    have hsplit := entry0 (Va0 m) c
    rw [show (unscopedBufs (Ix := Unit) (Name := ℕ) (U := UR sig nD τ) (Lvl := ℕ) c (Va0 m c) : sProp 𝕄)
        = StableHlo.held (c : Thread nD τ) (Pipeline.ucRefs τ sig) (V2 m c) from by
          rw [← Pipeline.unscopedBufs_held]] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (Va0 m) c (fun b => V3 m (outs m) c b)
      (by rw [V3_eq]; unfold W3; rw [Function.update_self])
      (fun b hb => by
        rw [V3_eq]; unfold W3
        rw [Function.update_of_ne (StableHlo.devRef_ne_of_ne hb : (Proc.devRef .tc b : DevRef τ sig) ≠ Proc.devRef .tc main_v16)])
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at its entry contents, left with its output
    array at what the write-backs left and everything else as found. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Va1 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Va1 m c)
  hentry c := by
    rw [Pipeline.ownSems0_none]
    have hsplit := entry1 (Va1 m) c
    rw [show (unscopedBufs (Ix := Unit) (Name := ℕ) (U := UR sig nD τ) (Lvl := ℕ) c (Va1 m c) : sProp 𝕄)
        = StableHlo.held (c : Thread nD τ) (Pipeline.ucRefs τ sig) (V5 m (outs m) c) from by
          rw [← Pipeline.unscopedBufs_held]; rw [V5_eq]] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Va1 m) c (fun b => V6 m (outs m) c b)
      (by rw [V6_eq]; unfold W6; rw [Function.update_self])
      (fun b hb => by
        rw [V6_eq]; unfold W6
        rw [Function.update_of_ne (StableHlo.devRef_ne_of_ne hb : (Proc.devRef .tc b : DevRef τ sig) ≠ Proc.devRef .tc main_v26)])
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at its entry contents, left with its output
    array at what the write-backs left and everything else as found. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Va2 m) c).loose
  hwaits := Pipeline.hwaits_of_owed_zero _ _ _ _ L lv 2 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Va2 m c)
  hentry c := by
    rw [Pipeline.ownSems0_none]
    have hsplit := entry2 (Va2 m) c
    rw [show (unscopedBufs (Ix := Unit) (Name := ℕ) (U := UR sig nD τ) (Lvl := ℕ) c (Va2 m c) : sProp 𝕄)
        = StableHlo.held (c : Thread nD τ) (Pipeline.ucRefs τ sig) (V8 m (outs m) c) from by
          rw [← Pipeline.unscopedBufs_held]; rw [V8_eq]] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (Va2 m) c (fun b => V9 m (outs m) c b)
      (by rw [V9_eq]; unfold W9; rw [Function.update_self])
      (fun b hb => by
        rw [V9_eq]; unfold W9
        rw [Function.update_of_ne (StableHlo.devRef_ne_of_ne hb : (Proc.devRef .tc b : DevRef τ sig) ≠ Proc.devRef .tc main_v36)])
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any `F`: from any memory with zero counters every weakly fair execution of @main terminates, nothing
    faulting, and the final memory holds every unscoped buffer at the last boundary's contents — the arguments and the
    result among them. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m))
    (fun c Q => by
      rewrite [main_chain c, Seg.run_eq_chain,
        show (segs m (outs m) 𝒱₀ L lv (fun _ c => R c) () (pdats m) (reg0 m) (reg1 m) (reg2 m) c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      sep_mono .rfl (show R (F := F) c ⊢ iprop(∃ W, owes (c : Thread nD τ) (0 : CellTallies nD τ sig Unit) W) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      rw [V10_eq]
      iintro ⟨Hh, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- Each argument array ends the run as launched: no host stretch writes it and no region may change it. -/
theorem W10_arg (c : Dev nD) :
    W10 m c main_arg0 = m ((c : Thread nD τ).loc main_arg0)
    ∧ W10 m c main_arg1 = m ((c : Thread nD τ).loc main_arg1)
    ∧ W10 m c main_arg2 = m ((c : Thread nD τ).loc main_arg2)
    ∧ W10 m c main_arg3 = m ((c : Thread nD τ).loc main_arg3)
    ∧ W10 m c main_arg4 = m ((c : Thread nD τ).loc main_arg4)
    ∧ W10 m c main_arg5 = m ((c : Thread nD τ).loc main_arg5) := by
  rw [← V10_eq]
  exact ⟨V10_main_arg0 m (outs m) c, V10_main_arg1 m (outs m) c, V10_main_arg2 m (outs m) c, V10_main_arg3 m (outs m) c, V10_main_arg4 m (outs m) c, V10_main_arg5 m (outs m) c⟩

/-- THE FRAME, at any `F`: the run, read at the argument arrays. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨e0, e1, e2, e3, e4, e5⟩ := W10_arg m c
    exact ⟨(h c _ (mem_uc main_arg0 (by decide))).trans e0,
      (h c _ (mem_uc main_arg1 (by decide))).trans e1,
      (h c _ (mem_uc main_arg2 (by decide))).trans e2,
      (h c _ (mem_uc main_arg3 (by decide))).trans e3,
      (h c _ (mem_uc main_arg4 (by decide))).trans e4,
      (h c _ (mem_uc main_arg5 (by decide))).trans e5⟩) (run_all m ρ)

end Cert.Kernel.Adj

end
-- ==== Proof.Body0.lean ====
/-
  Region 0 of the idealized kernel: one row tile of `x = h + A · h`.

  At grid point `t` the body is handed rows `256·t … 256·t + 255` of the adjacency matrix `A` (window 0), the whole of
  `h` (window 1, resident: fetched once, at the first point), rows `256·t … 256·t + 255` of `h` again (window 2) and an
  output tile of the same rows (window 3). It stores into the output tile the tile of `h` plus the product of the
  tile of `A` with all of `h`. Windows 1 and 2 read ONE array, so the core holds that array in two halves of the full
  share, one per window; the adjacency matrix and the output array are held whole.

  Stated here at a parameter `V`, the contents of the core's buffers when the region is entered: each window's block
  at a point, what the store leaves in the output tile, the body's triple, the region's proof data and the body
  obligation at every point.
-/
import proofs.«110072_j3049426780241_2_alg».proof.Proof.Gen.KernelIdeal.Launch
import proofs.«110072_j3049426780241_2_alg».proof.Proof.Gen.KernelIdeal.Skeleton
import proofs.«110072_j3049426780241_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of `A` is in its staging buffer at every point, for any proof data that reads the array off `V` and whose
    body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of `h` is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The tile of `h` is in its staging buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole of a staging buffer -/

abbrev rA0 : Rect S256x16384 := Rect.unit (s := S256x16384) ![0, 0] S256x16384.size inb_S256x16384_S256x16384_0_0
abbrev rH0 : Rect S16384x64 := Rect.unit (s := S16384x64) ![0, 0] S16384x64.size inb_S16384x64_S16384x64_0_0
abbrev rT0 : Rect S256x64 := Rect.unit (s := S256x64) ![0, 0] S256x64.size inb_S256x64_S256x64_0_0

/-! ## What the body leaves in the output tile -/

/-- The output tile after the body, from the three input blocks: its one store, of the tile of `h` plus the tile of
    `A` times `h`. -/
def out0_3 (x0 : Vec F S256x16384 .f32) (x1 : Vec F S16384x64 .f32) (x2 : Vec F S256x64 .f32) : Vec F S256x64 .f32 :=
  View.canon [⟨rT0, k0_pay1 (View.ld x0 rA0) (View.ld x1 rH0) (View.ld x2 rT0)⟩]

/-- The one store covers the tile. -/
theorem cover0_3 (p0 : Vec F S256x64 .f32) (y : S256x64.Idx) :
    ∃ pc ∈ ([⟨rT0, p0⟩] : List (View.Piece (Elt F) S256x64 .f32)), y ∈ pc.1.set :=
  View.cover_of_tiled [⟨rT0, p0⟩] S256x64.size (by rfl) y

/-! ## The body's triple -/

set_option maxHeartbeats 1000000 in
/-- The body on whole staging memrefs, the inputs' at contents `x0`, `x1`, `x2` and the output's at anything, runs to
    the continuation holding the inputs' as they were and the output's at `out0_3` of them. -/
theorem sound_kernel0 (c : Dev nD) (E : Set ℕ) (i : grid0.Coords)
    (arg1 : Memref sig .tc .vmem S256x16384 .f32) (harg1 : arg1.IsWhole) (arg2 : Memref sig .tc .vmem S16384x64 .f32) (harg2 : arg2.IsWhole)
    (arg3 : Memref sig .tc .vmem S256x64 .f32) (harg3 : arg3.IsWhole) (arg4 : Memref sig .tc .vmem S256x64 .f32) (harg4 : arg4.IsWhole)
    (x0 : Vec F S256x16384 .f32) (x1 : Vec F S16384x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__adj_residual_kernel i arg1 harg1 arg2 harg2 arg3 harg3 arg4 harg4) K := by
  simp only [cc0__adj_residual_kernel_eq_skeleton]; unfold cc0__adj_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of region 0 on core `c`: the arrays as the region finds them; after the body at point `t` each input's
    buffer still at its block and the output tile at `out0_3` of the input blocks; the invariant the scoped rest and the
    generator register, untouched; nothing owed; the adjacency matrix held whole and the array both `h` windows read held in
    two halves, the left half for the resident window and the right half for the tile. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Adj

end
-- ==== Proof.Seg0.lean ====
/-
  Region 0: the core's buffers into the region's arrays and back.

  The region's four windows sit on THREE buffers: the adjacency matrix (window 0), `h` (windows 1 and 2) and the output
  (window 3). On entry the buffer behind `h`, held whole, is split into the two halves of the full share, one per window;
  on exit the halves — both still at the contents the region found, since an input is never written — are joined again,
  and the output's buffer holds what the write-backs of all 64 points left.
-/
import proofs.«110072_j3049426780241_2_alg».proof.Proof.Body0

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the adjacency matrix and the output held whole, `h` in two halves. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_v15) ↦{fullShare.left} G 1)
          ∗ (((c : Thread nD τ).loc main_v15) ↦{fullShare.right} G 2) ∗ (((c : Thread nD τ).loc main_v16) ↦{fullShare} G 3)) := by
  unfold Dat.arrays
  rw [bigSep_W0]
  rw [(arr_whole0 0).set_eq_univ, (arr_whole0 1).set_eq_univ, (arr_whole0 3).set_eq_univ]
  rfl

/-- The three distinct buffers behind the four windows, each whole. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg1) ↦{fullShare} Vc main_arg1) ∗ (((c : Thread nD τ).loc main_v15) ↦{fullShare} Vc main_v15)
          ∗ (((c : Thread nD τ).loc main_v16) ↦{fullShare} Vc main_v16)) := by
  unfold Pipeline.arrBufs
  rw [bigSep_eq_bigSepL_of_eq [main_arg1, main_v15, main_v16] (by decide) (by decide)]
  rfl

/-- An input array ends the region as it was found. -/
theorem arrAt0_0 (c : Dev nD) (n : Nat) : (dat0 V c).arrAt 0 n = V c main_arg1 := ((dat0 V c).arrAt_in 0 rfl n).trans (A_eq0 V c 0)
theorem arrAt0_1 (c : Dev nD) (n : Nat) : (dat0 V c).arrAt 1 n = V c main_v15 := ((dat0 V c).arrAt_in 1 rfl n).trans (A_eq0 V c 1)
theorem arrAt0_2 (c : Dev nD) (n : Nat) : (dat0 V c).arrAt 2 n = V c main_v15 := ((dat0 V c).arrAt_in 2 rfl n).trans (A_eq0 V c 2)

/-- ENTRY: the core's unscoped buffers at `V` are the region's arrays at their entry contents — the buffer behind `h`
    split into its two halves — and every other unscoped buffer. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have hs : (unscopedBufs (Ix := Unit) (Name := ℕ) (U := UR sig nD τ) (Lvl := ℕ) c (V c) : sProp 𝕄)
      = iprop(Pipeline.arrBufs spec0 c (V c) ∗ Pipeline.unscopedRest spec0 c (V c)) :=
    Pipeline.unscopedBufs_split₀ cfgs 0 winFacts₀0.arr_unscoped c (V c)
  rw [hs, arrBufs0_eq, arrays0_eq]
  iintro ⟨⟨Ha, Hh, Ho⟩, Hrest⟩
  ihave Hh2 := (pointsTo_share (PosShare.mem_left_op_right fullShare)).1 $$ Hh
  icases Hh2 with ⟨Hl, Hr⟩
  isplitr [Hrest]
  · isplitl [Ha]; · iexact Ha
    isplitl [Hl]; · iexact Hl
    isplitl [Hr]; · iexact Hr
    iexact Ho
  iexact Hrest

/-- EXIT: the region's arrays at their final contents — the two halves of `h` joined — and every other unscoped buffer as
    found are the core's unscoped buffers at any contents `V'` that have the output at what the write-backs left and
    agree with `V` elsewhere. -/
theorem exit0 (c : Dev nD) (V' : (b : Ref sig .tc) → Buf (Elt F) ((c : Thread nD τ).loc b))
    (hout : V' main_v16 = (dat0 V c).arrAt 3 cfg0.N) (hrest : ∀ b, b ≠ main_v16 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec0 c V' ∗ Pipeline.unscopedRest spec0 c V') :=
    Pipeline.unscopedBufs_split₀ cfgs 0 winFacts₀0.arr_unscoped c V'
  rw [hs, arrBufs0_eq, arrays0_eq,
    arrAt0_0, arrAt0_1, arrAt0_2, hrest main_arg1 (by decide), hrest main_v15 (by decide), hout]
  have hR : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b fun e => (Finset.mem_sdiff.mp hb).2 (e ▸ Finset.mem_image.mpr ⟨3, Finset.mem_univ _, rfl⟩)]
  rw [hR]
  iintro ⟨⟨Ha, Hl, Hr, Ho⟩, Hrest⟩
  isplitr [Hrest]
  · isplitl [Ha]; · iexact Ha
    isplitr [Ho]
    · iapply (pointsTo_share (PosShare.mem_left_op_right fullShare)).2
      isplitl [Hl]; · iexact Hl
      iexact Hr
    iexact Ho
  iexact Hrest

end Cert.KernelIdeal.Adj

end
-- ==== Proof.Body1.lean ====
/-
  Region 1 of the idealized kernel: one row tile of `x = h + A · h`.

  At grid point `t` the body is handed rows `256·t … 256·t + 255` of the adjacency matrix `A` (window 0), the whole of
  `h` (window 1, resident: fetched once, at the first point), rows `256·t … 256·t + 255` of `h` again (window 2) and an
  output tile of the same rows (window 3). It stores into the output tile the tile of `h` plus the product of the
  tile of `A` with all of `h`. Windows 1 and 2 read ONE array, so the core holds that array in two halves of the full
  share, one per window; the adjacency matrix and the output array are held whole.

  Stated here at a parameter `V`, the contents of the core's buffers when the region is entered: each window's block
  at a point, what the store leaves in the output tile, the body's triple, the region's proof data and the body
  obligation at every point.
-/
import proofs.«110072_j3049426780241_2_alg».proof.Proof.Gen.KernelIdeal.Launch
import proofs.«110072_j3049426780241_2_alg».proof.Proof.Gen.KernelIdeal.Skeleton
import proofs.«110072_j3049426780241_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of `A` is in its staging buffer at every point, for any proof data that reads the array off `V` and whose
    body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole of `h` is in its staging buffer at every point: fetched at the first, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The tile of `h` is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole of a staging buffer -/

abbrev rA1 : Rect S256x16384 := Rect.unit (s := S256x16384) ![0, 0] S256x16384.size inb_S256x16384_S256x16384_0_0
abbrev rH1 : Rect S16384x64 := Rect.unit (s := S16384x64) ![0, 0] S16384x64.size inb_S16384x64_S16384x64_0_0
abbrev rT1 : Rect S256x64 := Rect.unit (s := S256x64) ![0, 0] S256x64.size inb_S256x64_S256x64_0_0

/-! ## What the body leaves in the output tile -/

/-- The output tile after the body, from the three input blocks: its one store, of the tile of `h` plus the tile of
    `A` times `h`. -/
def out1_3 (x0 : Vec F S256x16384 .f32) (x1 : Vec F S16384x64 .f32) (x2 : Vec F S256x64 .f32) : Vec F S256x64 .f32 :=
  View.canon [⟨rT1, k1_pay1 (View.ld x0 rA1) (View.ld x1 rH1) (View.ld x2 rT1)⟩]

/-- The one store covers the tile. -/
theorem cover1_3 (p0 : Vec F S256x64 .f32) (y : S256x64.Idx) :
    ∃ pc ∈ ([⟨rT1, p0⟩] : List (View.Piece (Elt F) S256x64 .f32)), y ∈ pc.1.set :=
  View.cover_of_tiled [⟨rT1, p0⟩] S256x64.size (by rfl) y

/-! ## The body's triple -/

set_option maxHeartbeats 1000000 in
/-- The body on whole staging memrefs, the inputs' at contents `x0`, `x1`, `x2` and the output's at anything, runs to
    the continuation holding the inputs' as they were and the output's at `out1_3` of them. -/
theorem sound_kernel1 (c : Dev nD) (E : Set ℕ) (i : grid1.Coords)
    (arg1 : Memref sig .tc .vmem S256x16384 .f32) (harg1 : arg1.IsWhole) (arg2 : Memref sig .tc .vmem S16384x64 .f32) (harg2 : arg2.IsWhole)
    (arg3 : Memref sig .tc .vmem S256x64 .f32) (harg3 : arg3.IsWhole) (arg4 : Memref sig .tc .vmem S256x64 .f32) (harg4 : arg4.IsWhole)
    (x0 : Vec F S256x16384 .f32) (x1 : Vec F S16384x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__adj_residual_kernel i arg1 harg1 arg2 harg2 arg3 harg3 arg4 harg4) K := by
  simp only [cc1__adj_residual_kernel_eq_skeleton]; unfold cc1__adj_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of region 1 on core `c`: the arrays as the region finds them; after the body at point `t` each input's
    buffer still at its block and the output tile at `out1_3` of the input blocks; the invariant the scoped rest and the
    generator register, untouched; nothing owed; the adjacency matrix held whole and the array both `h` windows read held in
    two halves, the left half for the resident window and the right half for the tile. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Adj

end
-- ==== Proof.Seg1.lean ====
/-
  Region 1: the core's buffers into the region's arrays and back.

  The region's four windows sit on THREE buffers: the adjacency matrix (window 0), `h` (windows 1 and 2) and the output
  (window 3). On entry the buffer behind `h`, held whole, is split into the two halves of the full share, one per window;
  on exit the halves — both still at the contents the region found, since an input is never written — are joined again,
  and the output's buffer holds what the write-backs of all 64 points left.
-/
import proofs.«110072_j3049426780241_2_alg».proof.Proof.Body1

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the adjacency matrix and the output held whole, `h` in two halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v25) ↦{fullShare.left} G 1)
          ∗ (((c : Thread nD τ).loc main_v25) ↦{fullShare.right} G 2) ∗ (((c : Thread nD τ).loc main_v26) ↦{fullShare} G 3)) := by
  unfold Dat.arrays
  rw [bigSep_W1]
  rw [(arr_whole1 0).set_eq_univ, (arr_whole1 1).set_eq_univ, (arr_whole1 3).set_eq_univ]
  rfl

/-- The three distinct buffers behind the four windows, each whole. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg1) ↦{fullShare} Vc main_arg1) ∗ (((c : Thread nD τ).loc main_v25) ↦{fullShare} Vc main_v25)
          ∗ (((c : Thread nD τ).loc main_v26) ↦{fullShare} Vc main_v26)) := by
  unfold Pipeline.arrBufs
  rw [bigSep_eq_bigSepL_of_eq [main_arg1, main_v25, main_v26] (by decide) (by decide)]
  rfl

/-- An input array ends the region as it was found. -/
theorem arrAt1_0 (c : Dev nD) (n : Nat) : (dat1 V c).arrAt 0 n = V c main_arg1 := ((dat1 V c).arrAt_in 0 rfl n).trans (A_eq1 V c 0)
theorem arrAt1_1 (c : Dev nD) (n : Nat) : (dat1 V c).arrAt 1 n = V c main_v25 := ((dat1 V c).arrAt_in 1 rfl n).trans (A_eq1 V c 1)
theorem arrAt1_2 (c : Dev nD) (n : Nat) : (dat1 V c).arrAt 2 n = V c main_v25 := ((dat1 V c).arrAt_in 2 rfl n).trans (A_eq1 V c 2)

/-- ENTRY: the core's unscoped buffers at `V` are the region's arrays at their entry contents — the buffer behind `h`
    split into its two halves — and every other unscoped buffer. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs (Ix := Unit) (Name := ℕ) (U := UR sig nD τ) (Lvl := ℕ) c (V c) : sProp 𝕄)
      = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨Ha, Hh, Ho⟩, Hrest⟩
  ihave Hh2 := (pointsTo_share (PosShare.mem_left_op_right fullShare)).1 $$ Hh
  icases Hh2 with ⟨Hl, Hr⟩
  isplitr [Hrest]
  · isplitl [Ha]; · iexact Ha
    isplitl [Hl]; · iexact Hl
    isplitl [Hr]; · iexact Hr
    iexact Ho
  iexact Hrest

/-- EXIT: the region's arrays at their final contents — the two halves of `h` joined — and every other unscoped buffer as
    found are the core's unscoped buffers at any contents `V'` that have the output at what the write-backs left and
    agree with `V` elsewhere. -/
theorem exit1 (c : Dev nD) (V' : (b : Ref sig .tc) → Buf (Elt F) ((c : Thread nD τ).loc b))
    (hout : V' main_v26 = (dat1 V c).arrAt 3 cfg1.N) (hrest : ∀ b, b ≠ main_v26 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [hs, arrBufs1_eq, arrays1_eq,
    arrAt1_0, arrAt1_1, arrAt1_2, hrest main_arg1 (by decide), hrest main_v25 (by decide), hout]
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b fun e => (Finset.mem_sdiff.mp hb).2 (e ▸ Finset.mem_image.mpr ⟨3, Finset.mem_univ _, rfl⟩)]
  rw [hR]
  iintro ⟨⟨Ha, Hl, Hr, Ho⟩, Hrest⟩
  isplitr [Hrest]
  · isplitl [Ha]; · iexact Ha
    isplitr [Ho]
    · iapply (pointsTo_share (PosShare.mem_left_op_right fullShare)).2
      isplitl [Hl]; · iexact Hl
      iexact Hr
    iexact Ho
  iexact Hrest

end Cert.KernelIdeal.Adj

end
-- ==== Proof.Body2.lean ====
/-
  Region 2 of the idealized kernel: one row tile of `x = h + A · h`.

  At grid point `t` the body is handed rows `256·t … 256·t + 255` of the adjacency matrix `A` (window 0), the whole of
  `h` (window 1, resident: fetched once, at the first point), rows `256·t … 256·t + 255` of `h` again (window 2) and an
  output tile of the same rows (window 3). It stores into the output tile the tile of `h` plus the product of the
  tile of `A` with all of `h`. Windows 1 and 2 read ONE array, so the core holds that array in two halves of the full
  share, one per window; the adjacency matrix and the output array are held whole.

  Stated here at a parameter `V`, the contents of the core's buffers when the region is entered: each window's block
  at a point, what the store leaves in the output tile, the body's triple, the region's proof data and the body
  obligation at every point.
-/
import proofs.«110072_j3049426780241_2_alg».proof.Proof.Gen.KernelIdeal.Launch
import proofs.«110072_j3049426780241_2_alg».proof.Proof.Gen.KernelIdeal.Skeleton
import proofs.«110072_j3049426780241_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile of `A` is in its staging buffer at every point, for any proof data that reads the array off `V` and whose
    body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole of `h` is in its staging buffer at every point: fetched at the first, and its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The tile of `h` is in its staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole of a staging buffer -/

abbrev rA2 : Rect S256x16384 := Rect.unit (s := S256x16384) ![0, 0] S256x16384.size inb_S256x16384_S256x16384_0_0
abbrev rH2 : Rect S16384x64 := Rect.unit (s := S16384x64) ![0, 0] S16384x64.size inb_S16384x64_S16384x64_0_0
abbrev rT2 : Rect S256x64 := Rect.unit (s := S256x64) ![0, 0] S256x64.size inb_S256x64_S256x64_0_0

/-! ## What the body leaves in the output tile -/

/-- The output tile after the body, from the three input blocks: its one store, of the tile of `h` plus the tile of
    `A` times `h`. -/
def out2_3 (x0 : Vec F S256x16384 .f32) (x1 : Vec F S16384x64 .f32) (x2 : Vec F S256x64 .f32) : Vec F S256x64 .f32 :=
  View.canon [⟨rT2, k2_pay1 (View.ld x0 rA2) (View.ld x1 rH2) (View.ld x2 rT2)⟩]

/-- The one store covers the tile. -/
theorem cover2_3 (p0 : Vec F S256x64 .f32) (y : S256x64.Idx) :
    ∃ pc ∈ ([⟨rT2, p0⟩] : List (View.Piece (Elt F) S256x64 .f32)), y ∈ pc.1.set :=
  View.cover_of_tiled [⟨rT2, p0⟩] S256x64.size (by rfl) y

/-! ## The body's triple -/

set_option maxHeartbeats 1000000 in
/-- The body on whole staging memrefs, the inputs' at contents `x0`, `x1`, `x2` and the output's at anything, runs to
    the continuation holding the inputs' as they were and the output's at `out2_3` of them. -/
theorem sound_kernel2 (c : Dev nD) (E : Set ℕ) (i : grid2.Coords)
    (arg1 : Memref sig .tc .vmem S256x16384 .f32) (harg1 : arg1.IsWhole) (arg2 : Memref sig .tc .vmem S16384x64 .f32) (harg2 : arg2.IsWhole)
    (arg3 : Memref sig .tc .vmem S256x64 .f32) (harg3 : arg3.IsWhole) (arg4 : Memref sig .tc .vmem S256x64 .f32) (harg4 : arg4.IsWhole)
    (x0 : Vec F S256x16384 .f32) (x1 : Vec F S16384x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__adj_residual_kernel i arg1 harg1 arg2 harg2 arg3 harg3 arg4 harg4) K := by
  simp only [cc2__adj_residual_kernel_eq_skeleton]; unfold cc2__adj_residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of region 2 on core `c`: the arrays as the region finds them; after the body at point `t` each input's
    buffer still at its block and the output tile at `out2_3` of the input blocks; the invariant the scoped rest and the
    generator register, untouched; nothing owed; the adjacency matrix held whole and the array both `h` windows read held in
    two halves, the left half for the resident window and the right half for the tile. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare
    | ⟨1, _⟩ => fullShare.left
    | ⟨2, _⟩ => fullShare.right
    | ⟨3, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Adj

end
-- ==== Proof.Seg2.lean ====
/-
  Region 2: the core's buffers into the region's arrays and back.

  The region's four windows sit on THREE buffers: the adjacency matrix (window 0), `h` (windows 1 and 2) and the output
  (window 3). On entry the buffer behind `h`, held whole, is split into the two halves of the full share, one per window;
  on exit the halves — both still at the contents the region found, since an input is never written — are joined again,
  and the output's buffer holds what the write-backs of all 64 points left.
-/
import proofs.«110072_j3049426780241_2_alg».proof.Proof.Body2

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the adjacency matrix and the output held whole, `h` in two halves. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v35) ↦{fullShare.left} G 1)
          ∗ (((c : Thread nD τ).loc main_v35) ↦{fullShare.right} G 2) ∗ (((c : Thread nD τ).loc main_v36) ↦{fullShare} G 3)) := by
  unfold Dat.arrays
  rw [bigSep_W2]
  rw [(arr_whole2 0).set_eq_univ, (arr_whole2 1).set_eq_univ, (arr_whole2 3).set_eq_univ]
  rfl

/-- The three distinct buffers behind the four windows, each whole. -/
theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_arg1) ↦{fullShare} Vc main_arg1) ∗ (((c : Thread nD τ).loc main_v35) ↦{fullShare} Vc main_v35)
          ∗ (((c : Thread nD τ).loc main_v36) ↦{fullShare} Vc main_v36)) := by
  unfold Pipeline.arrBufs
  rw [bigSep_eq_bigSepL_of_eq [main_arg1, main_v35, main_v36] (by decide) (by decide)]
  rfl

/-- An input array ends the region as it was found. -/
theorem arrAt2_0 (c : Dev nD) (n : Nat) : (dat2 V c).arrAt 0 n = V c main_arg1 := ((dat2 V c).arrAt_in 0 rfl n).trans (A_eq2 V c 0)
theorem arrAt2_1 (c : Dev nD) (n : Nat) : (dat2 V c).arrAt 1 n = V c main_v35 := ((dat2 V c).arrAt_in 1 rfl n).trans (A_eq2 V c 1)
theorem arrAt2_2 (c : Dev nD) (n : Nat) : (dat2 V c).arrAt 2 n = V c main_v35 := ((dat2 V c).arrAt_in 2 rfl n).trans (A_eq2 V c 2)

/-- ENTRY: the core's unscoped buffers at `V` are the region's arrays at their entry contents — the buffer behind `h`
    split into its two halves — and every other unscoped buffer. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  have hs : (unscopedBufs (Ix := Unit) (Name := ℕ) (U := UR sig nD τ) (Lvl := ℕ) c (V c) : sProp 𝕄)
      = iprop(Pipeline.arrBufs spec2 c (V c) ∗ Pipeline.unscopedRest spec2 c (V c)) :=
    Pipeline.unscopedBufs_split₀ cfgs 2 winFacts₀2.arr_unscoped c (V c)
  rw [hs, arrBufs2_eq, arrays2_eq]
  iintro ⟨⟨Ha, Hh, Ho⟩, Hrest⟩
  ihave Hh2 := (pointsTo_share (PosShare.mem_left_op_right fullShare)).1 $$ Hh
  icases Hh2 with ⟨Hl, Hr⟩
  isplitr [Hrest]
  · isplitl [Ha]; · iexact Ha
    isplitl [Hl]; · iexact Hl
    isplitl [Hr]; · iexact Hr
    iexact Ho
  iexact Hrest

/-- EXIT: the region's arrays at their final contents — the two halves of `h` joined — and every other unscoped buffer as
    found are the core's unscoped buffers at any contents `V'` that have the output at what the write-backs left and
    agree with `V` elsewhere. -/
theorem exit2 (c : Dev nD) (V' : (b : Ref sig .tc) → Buf (Elt F) ((c : Thread nD τ).loc b))
    (hout : V' main_v36 = (dat2 V c).arrAt 3 cfg2.N) (hrest : ∀ b, b ≠ main_v36 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec2 c V' ∗ Pipeline.unscopedRest spec2 c V') :=
    Pipeline.unscopedBufs_split₀ cfgs 2 winFacts₀2.arr_unscoped c V'
  rw [hs, arrBufs2_eq, arrays2_eq,
    arrAt2_0, arrAt2_1, arrAt2_2, hrest main_arg1 (by decide), hrest main_v35 (by decide), hout]
  have hR : (Pipeline.unscopedRest (Ix := Unit) (Name := ℕ) (U := UR sig nD τ) (Lvl := ℕ) spec2 c V' : sProp 𝕄)
      = Pipeline.unscopedRest spec2 c (V c) := by
    unfold Pipeline.unscopedRest
    exact bigSep_congr fun b hb => by
      rw [hrest b fun e => (Finset.mem_sdiff.mp hb).2 (e ▸ Finset.mem_image.mpr ⟨3, Finset.mem_univ _, rfl⟩)]
  rw [hR]
  iintro ⟨⟨Ha, Hl, Hr, Ho⟩, Hrest⟩
  isplitr [Hrest]
  · isplitl [Ha]; · iexact Ha
    isplitr [Ho]
    · iapply (pointsTo_share (PosShare.mem_left_op_right fullShare)).2
      isplitl [Hl]; · iexact Hl
      iexact Hr
    iexact Ho
  iexact Hrest

end Cert.KernelIdeal.Adj

end
-- ==== Proof.Run.lean ====
/-
  The idealized kernel's run: @main as ten segments — seven stretches of host operations and the three `x = h + A · h`
  regions — from the launch to the return.

  Between two segments the core holds every unscoped buffer whole. The contents at each boundary are a fold from the
  launch memory: a host stretch applies its operations; a region leaves every buffer as found except its output array,
  which ends holding what the write-backs of all 64 points left. Each region's proof data is taken at its own entry
  contents, so the second region reads the first one's output through the host operations between them, and the third
  the second's.
-/
import proofs.«110072_j3049426780241_2_alg».proof.Proof.Seg0
import proofs.«110072_j3049426780241_2_alg».proof.Proof.Seg1
import proofs.«110072_j3049426780241_2_alg».proof.Proof.Seg2
import proofs.«110072_j3049426780241_2_alg».proof.Proof.Gen.KernelIdeal.Regions

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Region 0's entry contents: the launch memory after the first two host stretches. -/
abbrev Va0 : (c : Dev nD) → (b : Ref sig .tc) → Buf (Elt F) ((c : Thread nD τ).loc b) := fun c b => V2 m c b
/-- After region 0: its output array at what the write-backs left. -/
def W3 (c : Dev nD) : Valuation τ sig (Elt F) := Function.update (V2 m c) main_v16 ((dat0 (Va0 m) c).arrAt 3 cfg0.N)
abbrev W4 (c : Dev nD) : Valuation τ sig (Elt F) := StableHlo.after hostOps1 (W3 m c)
abbrev W5 (c : Dev nD) : Valuation τ sig (Elt F) := StableHlo.after hostOps1_1 (W4 m c)
/-- Region 1's entry contents. -/
abbrev Va1 : (c : Dev nD) → (b : Ref sig .tc) → Buf (Elt F) ((c : Thread nD τ).loc b) := fun c b => W5 m c b
/-- After region 1. -/
def W6 (c : Dev nD) : Valuation τ sig (Elt F) := Function.update (W5 m c) main_v26 ((dat1 (Va1 m) c).arrAt 3 cfg1.N)
abbrev W7 (c : Dev nD) : Valuation τ sig (Elt F) := StableHlo.after hostOps2 (W6 m c)
abbrev W8 (c : Dev nD) : Valuation τ sig (Elt F) := StableHlo.after hostOps2_1 (W7 m c)
/-- Region 2's entry contents. -/
abbrev Va2 : (c : Dev nD) → (b : Ref sig .tc) → Buf (Elt F) ((c : Thread nD τ).loc b) := fun c b => W8 m c b
/-- After region 2. -/
def W9 (c : Dev nD) : Valuation τ sig (Elt F) := Function.update (W8 m c) main_v36 ((dat2 (Va2 m) c).arrAt 3 cfg2.N)
/-- At the return. -/
abbrev W10 (c : Dev nD) : Valuation τ sig (Elt F) := StableHlo.after hostOps3 (W9 m c)

/-- What each region leaves in its output array, as the unknowns the segments' boundary contents are written over:
    read only at the three regions' exits. -/
def outs : Outs (F := F) := fun J r c =>
  match J with
  | 3 => W3 m c r
  | 6 => W6 m c r
  | 9 => W9 m c r
  | _ => V2 m c r

theorem V3_eq (c : Dev nD) : V3 m (outs m) c = W3 m c := by
  show Function.update (V2 m c) main_v16 (W3 m c main_v16) = W3 m c
  unfold W3; rw [Function.update_self]
theorem V5_eq (c : Dev nD) : V5 m (outs m) c = W5 m c := by
  show StableHlo.after hostOps1_1 (StableHlo.after hostOps1 (V3 m (outs m) c)) = _
  rw [V3_eq]
theorem V6_eq (c : Dev nD) : V6 m (outs m) c = W6 m c := by
  show Function.update (V5 m (outs m) c) main_v26 (W6 m c main_v26) = W6 m c
  rw [V5_eq]; unfold W6; rw [Function.update_self]
theorem V8_eq (c : Dev nD) : V8 m (outs m) c = W8 m c := by
  show StableHlo.after hostOps2_1 (StableHlo.after hostOps2 (V6 m (outs m) c)) = _
  rw [V6_eq]
theorem V9_eq (c : Dev nD) : V9 m (outs m) c = W9 m c := by
  show Function.update (V8 m (outs m) c) main_v36 (W9 m c main_v36) = W9 m c
  rw [V8_eq]; unfold W9; rw [Function.update_self]
theorem V10_eq (c : Dev nD) : V10 m (outs m) c = W10 m c := by
  show StableHlo.after hostOps3 (V9 m (outs m) c) = _
  rw [V9_eq]

/-! ## The proof data family and what rides beside the buffers -/

/-- Every region's proof data, each at its own entry contents. -/
def pdats : (p : Fin 3) → (c : Dev nD) → Dat τ (Elt F) Unit ℕ (UR sig nD τ) ℕ (Pipeline.pin (pcfgs (F := F)) adm p) c
  | ⟨0, _⟩ => fun c => dat0 (Va0 m) c
  | ⟨1, _⟩ => fun c => dat1 (Va1 m) c
  | ⟨2, _⟩ => fun c => dat2 (Va2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at its entry contents, left with its output
    array at what the write-backs left and everything else as found. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Va0 m) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Va0 m c)
  hentry c := by
    rw [Pipeline.ownSems0_none]
    have hsplit := entry0 (Va0 m) c
    rw [show (unscopedBufs (Ix := Unit) (Name := ℕ) (U := UR sig nD τ) (Lvl := ℕ) c (Va0 m c) : sProp 𝕄)
        = StableHlo.held (c : Thread nD τ) (Pipeline.ucRefs τ sig) (V2 m c) from by
          rw [← Pipeline.unscopedBufs_held]] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (Va0 m) c (fun b => V3 m (outs m) c b)
      (by rw [V3_eq]; unfold W3; rw [Function.update_self])
      (fun b hb => by
        rw [V3_eq]; unfold W3
        rw [Function.update_of_ne (StableHlo.devRef_ne_of_ne hb : (Proc.devRef .tc b : DevRef τ sig) ≠ Proc.devRef .tc main_v16)])
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at its entry contents, left with its output
    array at what the write-backs left and everything else as found. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Va1 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Va1 m c)
  hentry c := by
    rw [Pipeline.ownSems0_none]
    have hsplit := entry1 (Va1 m) c
    rw [show (unscopedBufs (Ix := Unit) (Name := ℕ) (U := UR sig nD τ) (Lvl := ℕ) c (Va1 m c) : sProp 𝕄)
        = StableHlo.held (c : Thread nD τ) (Pipeline.ucRefs τ sig) (V5 m (outs m) c) from by
          rw [← Pipeline.unscopedBufs_held]; rw [V5_eq]] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Va1 m) c (fun b => V6 m (outs m) c b)
      (by rw [V6_eq]; unfold W6; rw [Function.update_self])
      (fun b hb => by
        rw [V6_eq]; unfold W6
        rw [Function.update_of_ne (StableHlo.devRef_ne_of_ne hb : (Proc.devRef .tc b : DevRef τ sig) ≠ Proc.devRef .tc main_v26)])
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at its entry contents, left with its output
    array at what the write-backs left and everything else as found. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Va2 m) c).loose
  hwaits := Pipeline.hwaits_of_owed_zero _ _ _ _ L lv 2 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Va2 m c)
  hentry c := by
    rw [Pipeline.ownSems0_none]
    have hsplit := entry2 (Va2 m) c
    rw [show (unscopedBufs (Ix := Unit) (Name := ℕ) (U := UR sig nD τ) (Lvl := ℕ) c (Va2 m c) : sProp 𝕄)
        = StableHlo.held (c : Thread nD τ) (Pipeline.ucRefs τ sig) (V8 m (outs m) c) from by
          rw [← Pipeline.unscopedBufs_held]; rw [V8_eq]] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (Va2 m) c (fun b => V9 m (outs m) c b)
      (by rw [V9_eq]; unfold W9; rw [Function.update_self])
      (fun b hb => by
        rw [V9_eq]; unfold W9
        rw [Function.update_of_ne (StableHlo.devRef_ne_of_ne hb : (Proc.devRef .tc b : DevRef τ sig) ≠ Proc.devRef .tc main_v36)])
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any `F`: from any memory with zero counters every weakly fair execution of @main terminates, nothing
    faulting, and the final memory holds every unscoped buffer at the last boundary's contents — the arguments and the
    result among them. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m))
    (fun c Q => by
      rewrite [main_chain c, Seg.run_eq_chain,
        show (segs m (outs m) 𝒱₀ L lv (fun _ c => R c) () (pdats m) (reg0 m) (reg1 m) (reg2 m) c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      sep_mono .rfl (show R (F := F) c ⊢ iprop(∃ W, owes (c : Thread nD τ) (0 : CellTallies nD τ sig Unit) W) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      rw [V10_eq]
      iintro ⟨Hh, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- Each argument array ends the run as launched: no host stretch writes it and no region may change it. -/
theorem W10_arg (c : Dev nD) :
    W10 m c main_arg0 = m ((c : Thread nD τ).loc main_arg0)
    ∧ W10 m c main_arg1 = m ((c : Thread nD τ).loc main_arg1)
    ∧ W10 m c main_arg2 = m ((c : Thread nD τ).loc main_arg2)
    ∧ W10 m c main_arg3 = m ((c : Thread nD τ).loc main_arg3)
    ∧ W10 m c main_arg4 = m ((c : Thread nD τ).loc main_arg4)
    ∧ W10 m c main_arg5 = m ((c : Thread nD τ).loc main_arg5) := by
  rw [← V10_eq]
  exact ⟨V10_main_arg0 m (outs m) c, V10_main_arg1 m (outs m) c, V10_main_arg2 m (outs m) c, V10_main_arg3 m (outs m) c, V10_main_arg4 m (outs m) c, V10_main_arg5 m (outs m) c⟩

/-- THE FRAME, at any `F`: the run, read at the argument arrays. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨e0, e1, e2, e3, e4, e5⟩ := W10_arg m c
    exact ⟨(h c _ (mem_uc main_arg0 (by decide))).trans e0,
      (h c _ (mem_uc main_arg1 (by decide))).trans e1,
      (h c _ (mem_uc main_arg2 (by decide))).trans e2,
      (h c _ (mem_uc main_arg3 (by decide))).trans e3,
      (h c _ (mem_uc main_arg4 (by decide))).trans e4,
      (h c _ (mem_uc main_arg5 (by decide))).trans e5⟩) (run_all m ρ)

end Cert.KernelIdeal.Adj

end
-- ==== Proof.Layer.lean ====
/-
  One message-passing layer as ONE function of whole arrays: for the adjacency matrix `A` (16384 × 16384) and the node
  features `h` (16384 × 64),

      layer A h [r, j] = h[r, j] + Σ_k A[r, k] · h[k, j]      (k over all 16384 nodes),

  on the extended reals. The kernel computes it tile by tile — 256 rows at a time, the whole of `h` resident —, the
  reference by one product of whole matrices and one sum; both are this function, with no law of arithmetic needed
  beyond reading each side at an index: the two sums run over the same terms in the same order.
-/
import proofs.«110072_j3049426780241_2_alg».proof.Proof.Gen.KernelIdeal
import Idealize.ShloMosaic.PureOps.Ideal
import Idealize.ShloMosaic.PureOps.Ideal.Laws
import Idealize.ShloMosaic.Lib.ValueIdx

noncomputable section

namespace Cert.KernelIdeal.Adj

open Cert.KernelIdeal Cert.KernelIdeal.Gen Idealize.ShloMosaic

/-- Row `i 0` of the adjacency matrix, at column `k`. -/
abbrev aIdx (i : S16384x64.Idx) (k : Fin 16384) : S16384x16384.Idx := fun a => match a with
  | ⟨0, _⟩ => ⟨(i 0).val, (i 0).isLt⟩
  | ⟨1, _⟩ => ⟨k.val, k.isLt⟩
/-- Column `i 1` of the features, at row `k`. -/
abbrev hIdx (i : S16384x64.Idx) (k : Fin 16384) : S16384x64.Idx := fun a => match a with
  | ⟨0, _⟩ => ⟨k.val, k.isLt⟩
  | ⟨1, _⟩ => ⟨(i 1).val, (i 1).isLt⟩

/-- One layer: the features plus the adjacency matrix times the features. -/
def layer (A : S16384x16384.Idx → Elt Ideal .f32) (h : S16384x64.Idx → Elt Ideal .f32) : S16384x64.Idx → Elt Ideal .f32 :=
  fun i => h i + ∑ k : Fin 16384, A (aIdx i k) * h (hIdx i k)

/-- Inside a tile: row `j 0` of the tile of `A`, at column `k`. -/
abbrev tIdx (j : S256x64.Idx) (k : Fin 16384) : S256x16384.Idx := fun a => match a with
  | ⟨0, _⟩ => ⟨(j 0).val, (j 0).isLt⟩
  | ⟨1, _⟩ => ⟨k.val, k.isLt⟩
/-- Inside a tile: column `j 1` of the features, at row `k`. -/
abbrev hIdxT (j : S256x64.Idx) (k : Fin 16384) : S16384x64.Idx := fun a => match a with
  | ⟨0, _⟩ => ⟨k.val, k.isLt⟩
  | ⟨1, _⟩ => ⟨(j 1).val, (j 1).isLt⟩

/-! ## The tile's matrix product read at an index -/

theorem lhs_tile_0 (j : S256x64.Idx) (q : dot_S256x16384_S16384x64_S256x64_1_0_0_1_n_n.contr.Idx) : (dot_S256x16384_S16384x64_S256x64_1_0_0_1_n_n.lhsIdx j q 0).val = (j 0).val := by
  unfold DotDims.lhsIdx
  rw [dif_neg (show ¬(0 : Fin S256x16384.rank) ∈ dot_S256x16384_S16384x64_S256x64_1_0_0_1_n_n.lhsBatch by decide), dif_pos (show (0 : Fin S256x16384.rank) ∈ dot_S256x16384_S16384x64_S256x64_1_0_0_1_n_n.lhsNonContracting by decide)]
  rfl
theorem lhs_tile_1 (j : S256x64.Idx) (q : dot_S256x16384_S16384x64_S256x64_1_0_0_1_n_n.contr.Idx) : (dot_S256x16384_S16384x64_S256x64_1_0_0_1_n_n.lhsIdx j q 1).val = (q ⟨0, by decide⟩).val :=
  dot_S256x16384_S16384x64_S256x64_1_0_0_1_n_n.lhsIdx_val_of_single rfl j q
theorem rhs_tile_0 (j : S256x64.Idx) (q : dot_S256x16384_S16384x64_S256x64_1_0_0_1_n_n.contr.Idx) : (dot_S256x16384_S16384x64_S256x64_1_0_0_1_n_n.rhsIdx j q 0).val = (q ⟨0, by decide⟩).val :=
  dot_S256x16384_S16384x64_S256x64_1_0_0_1_n_n.rhsIdx_val_of_single rfl j q
theorem rhs_tile_1 (j : S256x64.Idx) (q : dot_S256x16384_S16384x64_S256x64_1_0_0_1_n_n.contr.Idx) : (dot_S256x16384_S16384x64_S256x64_1_0_0_1_n_n.rhsIdx j q 1).val = (j 1).val := by
  unfold DotDims.rhsIdx
  rw [dif_neg (show ¬(1 : Fin S16384x64.rank) ∈ dot_S256x16384_S16384x64_S256x64_1_0_0_1_n_n.rhsBatch by decide), dif_pos (show (1 : Fin S16384x64.rank) ∈ dot_S256x16384_S16384x64_S256x64_1_0_0_1_n_n.rhsNonContracting by decide)]
  rfl

/-- The tile's product into a zero accumulator, at entry `j` of the tile: the sum over all nodes `k` of the tile of `A` at
    (`j 0`, `k`) times the features at (`k`, `j 1`). -/
theorem tile_matmul_apply (x0 : FVec Ideal S256x16384 .f32) (x1 : FVec Ideal S16384x64 .f32) (j : S256x64.Idx) :
    FloatOps.matmul dot_S256x16384_S16384x64_S256x64_1_0_0_1_n_n none x0 x1 (constant S256x64 .f32 0x00000000#32) j
      = ∑ k : Fin 16384, x0 (tIdx j k) * x1 (hIdxT j k) := by
  rw [Ideal.matmul_constant_zero_apply, ← Equiv.sum_comp (ValueIdx.contrEquiv1 dot_S256x16384_S16384x64_S256x64_1_0_0_1_n_n 16384 rfl rfl).symm]
  refine Finset.sum_congr rfl fun k _ => ?_
  have hk := ValueIdx.contrEquiv1_symm_val dot_S256x16384_S16384x64_S256x64_1_0_0_1_n_n 16384 rfl rfl k
  have el : dot_S256x16384_S16384x64_S256x64_1_0_0_1_n_n.lhsIdx j ((ValueIdx.contrEquiv1 dot_S256x16384_S16384x64_S256x64_1_0_0_1_n_n 16384 rfl rfl).symm k) = tIdx j k := funext fun a => Fin.ext (by
    match a with
    | ⟨0, _⟩ => exact lhs_tile_0 _ _
    | ⟨1, _⟩ => exact (lhs_tile_1 _ _).trans hk)
  have er : dot_S256x16384_S16384x64_S256x64_1_0_0_1_n_n.rhsIdx j ((ValueIdx.contrEquiv1 dot_S256x16384_S16384x64_S256x64_1_0_0_1_n_n 16384 rfl rfl).symm k) = hIdxT j k := funext fun a => Fin.ext (by
    match a with
    | ⟨0, _⟩ => exact (rhs_tile_0 _ _).trans hk
    | ⟨1, _⟩ => exact rhs_tile_1 _ _)
  rw [el, er]

end Cert.KernelIdeal.Adj

end
-- ==== Proof.Val0.lean ====
/-
  Region 0's output array after the run: one layer of its inputs.

  Point `t` stores into its output tile, at entry `j`, the tile of `h` at `j` plus the sum over all nodes `k` of the tile of
  `A` at (`j 0`, `k`) times `h` at (`k`, `j 1`). The tile of `A` and the tile of `h` are rows `256·t …` of their arrays and the
  output tile is rows `256·t …` of the output, so what point `t` writes back is block `t` of `layer A h`. The 64 tiles
  cover all 16384 rows: row `r` is in tile `r / 256`.
-/
import proofs.«110072_j3049426780241_2_alg».proof.Proof.Seg0
import proofs.«110072_j3049426780241_2_alg».proof.Proof.Layer
import Idealize.ShloMosaic.Lib.Pipeline.Value

set_option maxRecDepth 16384

noncomputable section

namespace Cert.KernelIdeal.Adj

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The body's payload at entry `j` of the tile. -/
theorem pay0_apply (x0 : Vec Ideal S256x16384 .f32) (x1 : Vec Ideal S16384x64 .f32) (x2 : Vec Ideal S256x64 .f32) (j : S256x64.Idx) :
    k0_pay1 (F := Ideal) x0 x1 x2 j = x2 j + ∑ k : Fin 16384, x0 (tIdx j k) * x1 (hIdxT j k) := by
  have e : k0_pay1 (F := Ideal) x0 x1 x2
      = addf (shapeCast S256x64 x2 shapeCasts_S256x64_S256x64)
          (matmul dot_S256x16384_S16384x64_S256x64_1_0_0_1_n_n none x0 (shapeCast S16384x64 x1 shapeCasts_S16384x64_S16384x64) (constant S256x64 .f32 0x00000000#32)) := rfl
  rw [e, shapeCast_self, shapeCast_self]
  exact congrArg (x2 j + ·) (tile_matmul_apply x0 x1 j)

/-- The tile equation over plain arrays: if the tile of `A`, the resident `h`, the tile of `h` and the output tile are read
    through maps `eA`, `eH`, `eT`, `eO` that agree the way a row tile does, the payload at entry `j` is the layer at the
    output's index. -/
theorem tile0_eq (A : S16384x16384.Idx → Elt Ideal .f32) (h : S16384x64.Idx → Elt Ideal .f32)
    (eA : S256x16384.Idx → S16384x16384.Idx) (eH : S16384x64.Idx → S16384x64.Idx) (eT eO : S256x64.Idx → S16384x64.Idx)
    (hT : ∀ j, eT j = eO j) (h0 : ∀ j k, eA (tIdx j k) = aIdx (eO j) k) (h1 : ∀ j k, eH (hIdxT j k) = hIdx (eO j) k)
    (j : S256x64.Idx) :
    k0_pay1 (F := Ideal) (fun y => A (eA y)) (fun y => h (eH y)) (fun y => h (eT y)) j = layer A h (eO j) := by
  refine (pay0_apply _ _ _ j).trans ?_
  unfold layer
  simp only [hT, h0, h1]

/-- The printed index maps, decided over the grid: the tiles of `A`, of `h` and of the output are all block `t` of their
    rows; the resident window is always the whole of `h`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the layer of the arrays as the region finds them. -/
theorem flushed0_eq (c : Dev nD) (t : Fin cfg0.N) :
    (dat0 V c).flushed 3 t = ((cfg0.win 3).blk t).view.read (Elt Ideal) (layer (V c main_arg1) (V c main_v15)) := by
  show (cfg0.win 3).cut (grid0.coords t) ((dat0 V c).after 3 t) = _
  rw [after0_3]
  unfold out0_3
  rw [View.canon_unit_zero hz0]
  simp only [View.ld_unit_zero (S := S256x16384) hz0, View.ld_unit_zero (S := S16384x64) hz0, View.ld_unit_zero (S := S256x64) hz0]
  obtain ⟨e00, e01, e10, e11, e20, e21, e30, e31⟩ := idx_facts0 t
  funext j
  refine tile0_eq (V c main_arg1) (V c main_v15) ((cfg0.win 0).blk t).view.emb ((cfg0.win 1).blk t).view.emb
    ((cfg0.win 2).blk t).view.emb ((cfg0.win 3).blk t).view.emb ?_ ?_ ?_ j
  · intro j
    have hj0 : (j 0).val < 256 := (j 0).isLt
    have hj1 : (j 1).val < 64 := (j 1).isLt
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 64 + 1 * (j 1).val = win0_3.index t (1 : Fin 2) * 64 + 1 * (j 1).val; omega
  · intro j k
    have hj0 : (j 0).val < 256 := (j 0).isLt
    have hk : k.val < 16384 := k.isLt
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 16384 + 1 * k.val = k.val; omega
  · intro j k
    have hj1 : (j 1).val < 64 := (j 1).isLt
    have hk : k.val < 16384 := k.isLt
    funext a; apply Fin.ext
    match a with
    | ⟨0, _⟩ => show win0_1.index t (0 : Fin 2) * 16384 + 1 * k.val = k.val; omega
    | ⟨1, _⟩ => show win0_1.index t (1 : Fin 2) * 64 + 1 * (j 1).val = win0_3.index t (1 : Fin 2) * 64 + 1 * (j 1).val; omega

/-- An index of the output array is in point `t`'s tile iff each coordinate is in the tile's range on its axis. -/
theorem mem_blk0 (t : Fin cfg0.N) (i : S16384x64.Idx) :
    i ∈ ((cfg0.win 3).blk t).view.set ↔ ∀ a : Fin 2, win0_3.index t a * S256x64.size a ≤ (i a).val ∧ (i a).val < win0_3.index t a * S256x64.size a + S256x64.size a := by
  show i ∈ ((View.whole main_v16).slice (win0_3.rect t)).set ↔ _
  rw [View.set_slice_whole, Rect.mem_set_unit]
  exact Iff.rfl

/-- Every row is in some tile: row `r` in tile `r / 256`. -/
theorem cover0 (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  have hlt : (i 0).val / 256 < cfg0.N := by rw [show cfg0.N = 64 from N_0]; omega
  obtain ⟨-, -, -, -, -, -, e30, e31⟩ := idx_facts0 ⟨(i 0).val / 256, hlt⟩
  have e30' : win0_3.index ⟨(i 0).val / 256, hlt⟩ (0 : Fin 2) = (i 0).val / 256 := e30
  refine ⟨⟨(i 0).val / 256, hlt⟩, flush0_3 _, ?_⟩
  rw [mem_blk0]
  intro a
  match a with
  | ⟨0, _⟩ =>
    show win0_3.index ⟨(i 0).val / 256, hlt⟩ (0 : Fin 2) * 256 ≤ (i 0).val ∧ (i 0).val < win0_3.index ⟨(i 0).val / 256, hlt⟩ (0 : Fin 2) * 256 + 256
    omega
  | ⟨1, _⟩ =>
    show win0_3.index ⟨(i 0).val / 256, hlt⟩ (1 : Fin 2) * 64 ≤ (i 1).val ∧ (i 1).val < win0_3.index ⟨(i 0).val / 256, hlt⟩ (1 : Fin 2) * 64 + 64
    omega

/-- THE OUTPUT ARRAY after the region: one layer of the adjacency matrix and the features as the region found them. -/
theorem final0 (c : Dev nD) : (dat0 V c).arrAt 3 cfg0.N = layer (V c main_arg1) (V c main_v15) :=
  (dat0 V c).arrAt_eq_of_cover 3 _ (fun t _ => flushed0_eq V c t) cover0

end Cert.KernelIdeal.Adj

end
-- ==== Proof.Val1.lean ====
/-
  Region 1's output array after the run: one layer of its inputs.

  Point `t` stores into its output tile, at entry `j`, the tile of `h` at `j` plus the sum over all nodes `k` of the tile of
  `A` at (`j 0`, `k`) times `h` at (`k`, `j 1`). The tile of `A` and the tile of `h` are rows `256·t …` of their arrays and the
  output tile is rows `256·t …` of the output, so what point `t` writes back is block `t` of `layer A h`. The 64 tiles
  cover all 16384 rows: row `r` is in tile `r / 256`.
-/
import proofs.«110072_j3049426780241_2_alg».proof.Proof.Seg1
import proofs.«110072_j3049426780241_2_alg».proof.Proof.Layer
import Idealize.ShloMosaic.Lib.Pipeline.Value

set_option maxRecDepth 16384

noncomputable section

namespace Cert.KernelIdeal.Adj

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The body's payload at entry `j` of the tile. -/
theorem pay1_apply (x0 : Vec Ideal S256x16384 .f32) (x1 : Vec Ideal S16384x64 .f32) (x2 : Vec Ideal S256x64 .f32) (j : S256x64.Idx) :
    k1_pay1 (F := Ideal) x0 x1 x2 j = x2 j + ∑ k : Fin 16384, x0 (tIdx j k) * x1 (hIdxT j k) := by
  have e : k1_pay1 (F := Ideal) x0 x1 x2
      = addf (shapeCast S256x64 x2 shapeCasts_S256x64_S256x64)
          (matmul dot_S256x16384_S16384x64_S256x64_1_0_0_1_n_n none x0 (shapeCast S16384x64 x1 shapeCasts_S16384x64_S16384x64) (constant S256x64 .f32 0x00000000#32)) := rfl
  rw [e, shapeCast_self, shapeCast_self]
  exact congrArg (x2 j + ·) (tile_matmul_apply x0 x1 j)

/-- The tile equation over plain arrays: if the tile of `A`, the resident `h`, the tile of `h` and the output tile are read
    through maps `eA`, `eH`, `eT`, `eO` that agree the way a row tile does, the payload at entry `j` is the layer at the
    output's index. -/
theorem tile1_eq (A : S16384x16384.Idx → Elt Ideal .f32) (h : S16384x64.Idx → Elt Ideal .f32)
    (eA : S256x16384.Idx → S16384x16384.Idx) (eH : S16384x64.Idx → S16384x64.Idx) (eT eO : S256x64.Idx → S16384x64.Idx)
    (hT : ∀ j, eT j = eO j) (h0 : ∀ j k, eA (tIdx j k) = aIdx (eO j) k) (h1 : ∀ j k, eH (hIdxT j k) = hIdx (eO j) k)
    (j : S256x64.Idx) :
    k1_pay1 (F := Ideal) (fun y => A (eA y)) (fun y => h (eH y)) (fun y => h (eT y)) j = layer A h (eO j) := by
  refine (pay1_apply _ _ _ j).trans ?_
  unfold layer
  simp only [hT, h0, h1]

/-- The printed index maps, decided over the grid: the tiles of `A`, of `h` and of the output are all block `t` of their
    rows; the resident window is always the whole of `h`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the layer of the arrays as the region finds them. -/
theorem flushed1_eq (c : Dev nD) (t : Fin cfg1.N) :
    (dat1 V c).flushed 3 t = ((cfg1.win 3).blk t).view.read (Elt Ideal) (layer (V c main_arg1) (V c main_v25)) := by
  show (cfg1.win 3).cut (grid1.coords t) ((dat1 V c).after 3 t) = _
  rw [after1_3]
  unfold out1_3
  rw [View.canon_unit_zero hz1]
  simp only [View.ld_unit_zero (S := S256x16384) hz1, View.ld_unit_zero (S := S16384x64) hz1, View.ld_unit_zero (S := S256x64) hz1]
  obtain ⟨e00, e01, e10, e11, e20, e21, e30, e31⟩ := idx_facts1 t
  funext j
  refine tile1_eq (V c main_arg1) (V c main_v25) ((cfg1.win 0).blk t).view.emb ((cfg1.win 1).blk t).view.emb
    ((cfg1.win 2).blk t).view.emb ((cfg1.win 3).blk t).view.emb ?_ ?_ ?_ j
  · intro j
    have hj0 : (j 0).val < 256 := (j 0).isLt
    have hj1 : (j 1).val < 64 := (j 1).isLt
    funext a; apply Fin.ext
    match a with
    | ⟨0, _⟩ => show win1_2.index t (0 : Fin 2) * 256 + 1 * (j 0).val = win1_3.index t (0 : Fin 2) * 256 + 1 * (j 0).val; omega
    | ⟨1, _⟩ => show win1_2.index t (1 : Fin 2) * 64 + 1 * (j 1).val = win1_3.index t (1 : Fin 2) * 64 + 1 * (j 1).val; omega
  · intro j k
    have hj0 : (j 0).val < 256 := (j 0).isLt
    have hk : k.val < 16384 := k.isLt
    funext a; apply Fin.ext
    match a with
    | ⟨0, _⟩ => show win1_0.index t (0 : Fin 2) * 256 + 1 * (j 0).val = win1_3.index t (0 : Fin 2) * 256 + 1 * (j 0).val; omega
    | ⟨1, _⟩ => show win1_0.index t (1 : Fin 2) * 16384 + 1 * k.val = k.val; omega
  · intro j k
    have hj1 : (j 1).val < 64 := (j 1).isLt
    have hk : k.val < 16384 := k.isLt
    funext a; apply Fin.ext
    match a with
    | ⟨0, _⟩ => show win1_1.index t (0 : Fin 2) * 16384 + 1 * k.val = k.val; omega
    | ⟨1, _⟩ => show win1_1.index t (1 : Fin 2) * 64 + 1 * (j 1).val = win1_3.index t (1 : Fin 2) * 64 + 1 * (j 1).val; omega

/-- An index of the output array is in point `t`'s tile iff each coordinate is in the tile's range on its axis. -/
theorem mem_blk1 (t : Fin cfg1.N) (i : S16384x64.Idx) :
    i ∈ ((cfg1.win 3).blk t).view.set ↔ ∀ a : Fin 2, win1_3.index t a * S256x64.size a ≤ (i a).val ∧ (i a).val < win1_3.index t a * S256x64.size a + S256x64.size a := by
  show i ∈ ((View.whole main_v26).slice (win1_3.rect t)).set ↔ _
  rw [View.set_slice_whole, Rect.mem_set_unit]
  exact Iff.rfl

/-- Every row is in some tile: row `r` in tile `r / 256`. -/
theorem cover1 (i : S16384x64.Idx) : ∃ t : Fin cfg1.N, (cfg1.win 3).flush t = true ∧ i ∈ ((cfg1.win 3).blk t).view.set := by
  have hi0 : (i 0).val < 16384 := (i 0).isLt
  have hi1 : (i 1).val < 64 := (i 1).isLt
  have hlt : (i 0).val / 256 < cfg1.N := by rw [show cfg1.N = 64 from N_1]; omega
  obtain ⟨-, -, -, -, -, -, e30, e31⟩ := idx_facts1 ⟨(i 0).val / 256, hlt⟩
  have e30' : win1_3.index ⟨(i 0).val / 256, hlt⟩ (0 : Fin 2) = (i 0).val / 256 := e30
  refine ⟨⟨(i 0).val / 256, hlt⟩, flush1_3 _, ?_⟩
  rw [mem_blk1]
  intro a
  match a with
  | ⟨0, _⟩ =>
    show win1_3.index ⟨(i 0).val / 256, hlt⟩ (0 : Fin 2) * 256 ≤ (i 0).val ∧ (i 0).val < win1_3.index ⟨(i 0).val / 256, hlt⟩ (0 : Fin 2) * 256 + 256
    omega
  | ⟨1, _⟩ =>
    show win1_3.index ⟨(i 0).val / 256, hlt⟩ (1 : Fin 2) * 64 ≤ (i 1).val ∧ (i 1).val < win1_3.index ⟨(i 0).val / 256, hlt⟩ (1 : Fin 2) * 64 + 64
    omega

/-- THE OUTPUT ARRAY after the region: one layer of the adjacency matrix and the features as the region found them. -/
theorem final1 (c : Dev nD) : (dat1 V c).arrAt 3 cfg1.N = layer (V c main_arg1) (V c main_v25) :=
  (dat1 V c).arrAt_eq_of_cover 3 _ (fun t _ => flushed1_eq V c t) cover1

end Cert.KernelIdeal.Adj

end
-- ==== Proof.Val2.lean ====
/-
  Region 2's output array after the run: one layer of its inputs.

  Point `t` stores into its output tile, at entry `j`, the tile of `h` at `j` plus the sum over all nodes `k` of the tile of
  `A` at (`j 0`, `k`) times `h` at (`k`, `j 1`). The tile of `A` and the tile of `h` are rows `256·t …` of their arrays and the
  output tile is rows `256·t …` of the output, so what point `t` writes back is block `t` of `layer A h`. The 64 tiles
  cover all 16384 rows: row `r` is in tile `r / 256`.
-/
import proofs.«110072_j3049426780241_2_alg».proof.Proof.Seg2
import proofs.«110072_j3049426780241_2_alg».proof.Proof.Layer
import Idealize.ShloMosaic.Lib.Pipeline.Value

set_option maxRecDepth 16384

noncomputable section

namespace Cert.KernelIdeal.Adj

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's payload at entry `j` of the tile. -/
theorem pay2_apply (x0 : Vec Ideal S256x16384 .f32) (x1 : Vec Ideal S16384x64 .f32) (x2 : Vec Ideal S256x64 .f32) (j : S256x64.Idx) :
    k2_pay1 (F := Ideal) x0 x1 x2 j = x2 j + ∑ k : Fin 16384, x0 (tIdx j k) * x1 (hIdxT j k) := by
  have e : k2_pay1 (F := Ideal) x0 x1 x2
      = addf (shapeCast S256x64 x2 shapeCasts_S256x64_S256x64)
          (matmul dot_S256x16384_S16384x64_S256x64_1_0_0_1_n_n none x0 (shapeCast S16384x64 x1 shapeCasts_S16384x64_S16384x64) (constant S256x64 .f32 0x00000000#32)) := rfl
  rw [e, shapeCast_self, shapeCast_self]
  exact congrArg (x2 j + ·) (tile_matmul_apply x0 x1 j)

/-- The tile equation over plain arrays: if the tile of `A`, the resident `h`, the tile of `h` and the output tile are read
    through maps `eA`, `eH`, `eT`, `eO` that agree the way a row tile does, the payload at entry `j` is the layer at the
    output's index. -/
theorem tile2_eq (A : S16384x16384.Idx → Elt Ideal .f32) (h : S16384x64.Idx → Elt Ideal .f32)
    (eA : S256x16384.Idx → S16384x16384.Idx) (eH : S16384x64.Idx → S16384x64.Idx) (eT eO : S256x64.Idx → S16384x64.Idx)
    (hT : ∀ j, eT j = eO j) (h0 : ∀ j k, eA (tIdx j k) = aIdx (eO j) k) (h1 : ∀ j k, eH (hIdxT j k) = hIdx (eO j) k)
    (j : S256x64.Idx) :
    k2_pay1 (F := Ideal) (fun y => A (eA y)) (fun y => h (eH y)) (fun y => h (eT y)) j = layer A h (eO j) := by
  refine (pay2_apply _ _ _ j).trans ?_
  unfold layer
  simp only [hT, h0, h1]

/-- The printed index maps, decided over the grid: the tiles of `A`, of `h` and of the output are all block `t` of their
    rows; the resident window is always the whole of `h`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the layer of the arrays as the region finds them. -/
theorem flushed2_eq (c : Dev nD) (t : Fin cfg2.N) :
    (dat2 V c).flushed 3 t = ((cfg2.win 3).blk t).view.read (Elt Ideal) (layer (V c main_arg1) (V c main_v35)) := by
  show (cfg2.win 3).cut (grid2.coords t) ((dat2 V c).after 3 t) = _
  rw [after2_3]
  unfold out2_3
  rw [View.canon_unit_zero hz2]
  simp only [View.ld_unit_zero (S := S256x16384) hz2, View.ld_unit_zero (S := S16384x64) hz2, View.ld_unit_zero (S := S256x64) hz2]
  obtain ⟨e00, e01, e10, e11, e20, e21, e30, e31⟩ := idx_facts2 t
  funext j
  refine tile2_eq (V c main_arg1) (V c main_v35) ((cfg2.win 0).blk t).view.emb ((cfg2.win 1).blk t).view.emb
    ((cfg2.win 2).blk t).view.emb ((cfg2.win 3).blk t).view.emb ?_ ?_ ?_ j
  · intro j
    have hj0 : (j 0).val < 256 := (j 0).isLt
    have hj1 : (j 1).val < 64 := (j 1).isLt
    funext a; apply Fin.ext
    match a with
    | ⟨0, _⟩ => show win2_2.index t (0 : Fin 2) * 256 + 1 * (j 0).val = win2_3.index t (0 : Fin 2) * 256 + 1 * (j 0).val; omega
    | ⟨1, _⟩ => show win2_2.index t (1 : Fin 2) * 64 + 1 * (j 1).val = win2_3.index t (1 : Fin 2) * 64 + 1 * (j 1).val; omega
  · intro j k
    have hj0 : (j 0).val < 256 := (j 0).isLt
    have hk : k.val < 16384 := k.isLt
    funext a; apply Fin.ext
    match a with
    | ⟨0, _⟩ => show win2_0.index t (0 : Fin 2) * 256 + 1 * (j 0).val = win2_3.index t (0 : Fin 2) * 256 + 1 * (j 0).val; omega
    | ⟨1, _⟩ => show win2_0.index t (1 : Fin 2) * 16384 + 1 * k.val = k.val; omega
  · intro j k
    have hj1 : (j 1).val < 64 := (j 1).isLt
    have hk : k.val < 16384 := k.isLt
    funext a; apply Fin.ext
    match a with
    | ⟨0, _⟩ => show win2_1.index t (0 : Fin 2) * 16384 + 1 * k.val = k.val; omega
    | ⟨1, _⟩ => show win2_1.index t (1 : Fin 2) * 64 + 1 * (j 1).val = win2_3.index t (1 : Fin 2) * 64 + 1 * (j 1).val; omega

/-- An index of the output array is in point `t`'s tile iff each coordinate is in the tile's range on its axis. -/
theorem mem_blk2 (t : Fin cfg2.N) (i : S16384x64.Idx) :
    i ∈ ((cfg2.win 3).blk t).view.set ↔ ∀ a : Fin 2, win2_3.index t a * S256x64.size a ≤ (i a).val ∧ (i a).val < win2_3.index t a * S256x64.size a + S256x64.size a := by
  show i ∈ ((View.whole main_v36).slice (win2_3.rect t)).set ↔ _
  rw [View.set_slice_whole, Rect.mem_set_unit]
  exact Iff.rfl

/-- Every row is in some tile: row `r` in tile `r / 256`. -/
theorem cover2 (i : S16384x64.Idx) : ∃ t : Fin cfg2.N, (cfg2.win 3).flush t = true ∧ i ∈ ((cfg2.win 3).blk t).view.set := by
  have hi0 : (i 0).val < 16384 := (i 0).isLt
  have hi1 : (i 1).val < 64 := (i 1).isLt
  have hlt : (i 0).val / 256 < cfg2.N := by rw [show cfg2.N = 64 from N_2]; omega
  obtain ⟨-, -, -, -, -, -, e30, e31⟩ := idx_facts2 ⟨(i 0).val / 256, hlt⟩
  have e30' : win2_3.index ⟨(i 0).val / 256, hlt⟩ (0 : Fin 2) = (i 0).val / 256 := e30
  refine ⟨⟨(i 0).val / 256, hlt⟩, flush2_3 _, ?_⟩
  rw [mem_blk2]
  intro a
  match a with
  | ⟨0, _⟩ =>
    show win2_3.index ⟨(i 0).val / 256, hlt⟩ (0 : Fin 2) * 256 ≤ (i 0).val ∧ (i 0).val < win2_3.index ⟨(i 0).val / 256, hlt⟩ (0 : Fin 2) * 256 + 256
    omega
  | ⟨1, _⟩ =>
    show win2_3.index ⟨(i 0).val / 256, hlt⟩ (1 : Fin 2) * 64 ≤ (i 1).val ∧ (i 1).val < win2_3.index ⟨(i 0).val / 256, hlt⟩ (1 : Fin 2) * 64 + 64
    omega

/-- THE OUTPUT ARRAY after the region: one layer of the adjacency matrix and the features as the region found them. -/
theorem final2 (c : Dev nD) : (dat2 V c).arrAt 3 cfg2.N = layer (V c main_arg1) (V c main_v35) :=
  (dat2 V c).arrAt_eq_of_cover 3 _ (fun t _ => flushed2_eq V c t) cover2

end Cert.KernelIdeal.Adj

end
-- ==== Proof.RefSide.lean ====
/-
  The reference's side of a layer: the host's product of the whole adjacency matrix with the features, plus the features,
  read at an index, is the layer function — the sum over all nodes `k` of `A[r, k] · h[k, j]`, in that order, added to
  `h[r, j]`.
-/
import proofs.«110072_j3049426780241_2_alg».proof.Proof.Gen.ReferenceIdeal.Read
import proofs.«110072_j3049426780241_2_alg».proof.Proof.Layer

set_option maxRecDepth 16384

noncomputable section

namespace Cert.ReferenceIdeal.RefValue

open Cert.ReferenceIdeal Cert.ReferenceIdeal.Gen Cert.ReferenceIdeal.Read Idealize.ShloMosaic Idealize.ShloMosaic.TcCoe

/-- The host's `h + A · h` is the layer of `A` and `h`. -/
theorem ref_layer (A : FVec Ideal S16384x16384 .f32) (h : FVec Ideal S16384x64 .f32) :
    (addf (F := Ideal) h (Host.dotGeneral (F := Ideal) dot_S16384x16384_S16384x64_S16384x64_1_0_0_1_n_n none A h) : FVec Ideal S16384x64 .f32) = Cert.KernelIdeal.Adj.layer A h := by
  funext i
  show h i + Host.dotGeneral (F := Ideal) dot_S16384x16384_S16384x64_S16384x64_1_0_0_1_n_n none A h i = h i + ∑ k : Fin 16384, A (Cert.KernelIdeal.Adj.aIdx i k) * h (Cert.KernelIdeal.Adj.hIdx i k)
  refine congrArg (h i + ·) ?_
  simp only [Host.dotGeneral]
  rw [Ideal.dotGeneral_apply, ← Equiv.sum_comp (ValueIdx.contrEquiv1 dot_S16384x16384_S16384x64_S16384x64_1_0_0_1_n_n 16384 rfl rfl).symm]
  refine Finset.sum_congr rfl fun k _ => ?_
  have hk := ValueIdx.contrEquiv1_symm_val dot_S16384x16384_S16384x64_S16384x64_1_0_0_1_n_n 16384 rfl rfl k
  have el : dot_S16384x16384_S16384x64_S16384x64_1_0_0_1_n_n.lhsIdx i ((ValueIdx.contrEquiv1 dot_S16384x16384_S16384x64_S16384x64_1_0_0_1_n_n 16384 rfl rfl).symm k) = Cert.KernelIdeal.Adj.aIdx i k := funext fun a => Fin.ext (by
    match a with
    | ⟨0, _⟩ => exact lhs_main_v16_0 _ _
    | ⟨1, _⟩ => exact (lhs_main_v16_1 _ _).trans hk)
  have er : dot_S16384x16384_S16384x64_S16384x64_1_0_0_1_n_n.rhsIdx i ((ValueIdx.contrEquiv1 dot_S16384x16384_S16384x64_S16384x64_1_0_0_1_n_n 16384 rfl rfl).symm k) = Cert.KernelIdeal.Adj.hIdx i k := funext fun a => Fin.ext (by
    match a with
    | ⟨0, _⟩ => exact (rhs_main_v16_0 _ _).trans hk
    | ⟨1, _⟩ => exact rhs_main_v16_1 _ _)
  rw [el, er]

end Cert.ReferenceIdeal.RefValue

end
-- ==== Proof.KVal.lean ====
/-
  The idealized kernel's result, stage by stage, is the reference's.

  Both programs run the same host operations around each layer — the embedding lookup, then per layer a product with
  that layer's 64 × 64 weights, the bias, a maximum with zero — and end with the same segment sum. They differ only in
  how a layer's `h + A · h` is computed: by the three tiled regions in the kernel, by one whole-matrix product and a sum
  on the host in the reference. Each region's output array is the layer function of its inputs, and so is the
  reference's stage; every other stage is the same term on both sides.
-/
import proofs.«110072_j3049426780241_2_alg».proof.Proof.Run
import proofs.«110072_j3049426780241_2_alg».proof.Proof.Val0
import proofs.«110072_j3049426780241_2_alg».proof.Proof.Val1
import proofs.«110072_j3049426780241_2_alg».proof.Proof.Val2
import proofs.«110072_j3049426780241_2_alg».proof.Proof.RefSide

set_option maxRecDepth 16384

noncomputable section

namespace Cert.KernelIdeal.Adj

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ## No segment writes an argument array -/

theorem V2_arg1 : V2 m c main_arg1 = m ((c : Thread nD τ).loc main_arg1) := (V2_of m c main_arg1 (by decide)).trans <| (V1_of m c main_arg1 (by decide)).trans rfl
theorem W3_arg4 : W3 m c main_arg4 = m ((c : Thread nD τ).loc main_arg4) := by rw [← V3_eq]; exact (V3_of m (outs m) c main_arg4 (by decide)).trans <| (V2_of m c main_arg4 (by decide)).trans <| (V1_of m c main_arg4 (by decide)).trans rfl
theorem W3_arg5 : W3 m c main_arg5 = m ((c : Thread nD τ).loc main_arg5) := by rw [← V3_eq]; exact (V3_of m (outs m) c main_arg5 (by decide)).trans <| (V2_of m c main_arg5 (by decide)).trans <| (V1_of m c main_arg5 (by decide)).trans rfl
theorem W5_arg1 : W5 m c main_arg1 = m ((c : Thread nD τ).loc main_arg1) := by rw [← V5_eq]; exact (V5_of m (outs m) c main_arg1 (by decide)).trans <| (V4_of m (outs m) c main_arg1 (by decide)).trans <| (V3_of m (outs m) c main_arg1 (by decide)).trans <| (V2_of m c main_arg1 (by decide)).trans <| (V1_of m c main_arg1 (by decide)).trans rfl
theorem W6_arg4 : W6 m c main_arg4 = m ((c : Thread nD τ).loc main_arg4) := by rw [← V6_eq]; exact (V6_of m (outs m) c main_arg4 (by decide)).trans <| (V5_of m (outs m) c main_arg4 (by decide)).trans <| (V4_of m (outs m) c main_arg4 (by decide)).trans <| (V3_of m (outs m) c main_arg4 (by decide)).trans <| (V2_of m c main_arg4 (by decide)).trans <| (V1_of m c main_arg4 (by decide)).trans rfl
theorem W6_arg5 : W6 m c main_arg5 = m ((c : Thread nD τ).loc main_arg5) := by rw [← V6_eq]; exact (V6_of m (outs m) c main_arg5 (by decide)).trans <| (V5_of m (outs m) c main_arg5 (by decide)).trans <| (V4_of m (outs m) c main_arg5 (by decide)).trans <| (V3_of m (outs m) c main_arg5 (by decide)).trans <| (V2_of m c main_arg5 (by decide)).trans <| (V1_of m c main_arg5 (by decide)).trans rfl
theorem W8_arg1 : W8 m c main_arg1 = m ((c : Thread nD τ).loc main_arg1) := by rw [← V8_eq]; exact (V8_of m (outs m) c main_arg1 (by decide)).trans <| (V7_of m (outs m) c main_arg1 (by decide)).trans <| (V6_of m (outs m) c main_arg1 (by decide)).trans <| (V5_of m (outs m) c main_arg1 (by decide)).trans <| (V4_of m (outs m) c main_arg1 (by decide)).trans <| (V3_of m (outs m) c main_arg1 (by decide)).trans <| (V2_of m c main_arg1 (by decide)).trans <| (V1_of m c main_arg1 (by decide)).trans rfl
theorem W9_arg2 : W9 m c main_arg2 = m ((c : Thread nD τ).loc main_arg2) := by rw [← V9_eq]; exact (V9_of m (outs m) c main_arg2 (by decide)).trans <| (V8_of m (outs m) c main_arg2 (by decide)).trans <| (V7_of m (outs m) c main_arg2 (by decide)).trans <| (V6_of m (outs m) c main_arg2 (by decide)).trans <| (V5_of m (outs m) c main_arg2 (by decide)).trans <| (V4_of m (outs m) c main_arg2 (by decide)).trans <| (V3_of m (outs m) c main_arg2 (by decide)).trans <| (V2_of m c main_arg2 (by decide)).trans <| (V1_of m c main_arg2 (by decide)).trans rfl

/-! ## The stages -/

set_option maxHeartbeats 4000000 in
/-- Before the first region: the embedding lookup through the first linear layer and its maximum with zero. -/
theorem st15 : V2 m c main_v15 = Cert.ReferenceIdeal.Read.val_main_v15 (F := Ideal) (m ((c : Thread nD τ).loc main_arg0)) (m ((c : Thread nD τ).loc main_arg3)) (m ((c : Thread nD τ).loc main_arg4)) (m ((c : Thread nD τ).loc main_arg5)) := by
  show StableHlo.after hostOps0_1 (StableHlo.after hostOps0 (V0 m c)) (Proc.devRef .tc main_v15) = _
  after_results
  rfl

/-- After the first region: the first layer. -/
theorem st17 : W3 m c main_v16 = Cert.ReferenceIdeal.Read.val_main_v17 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  unfold W3
  rw [Function.update_self, final0 (Va0 m) c]
  show layer (V2 m c main_arg1) (V2 m c main_v15) = _
  rw [st15, V2_arg1]
  exact (Cert.ReferenceIdeal.RefValue.ref_layer _ _).symm

set_option maxHeartbeats 4000000 in
/-- Before the second region: the second linear layer and its maximum with zero, of the first layer. -/
theorem st26 : W5 m c main_v25 = Cert.ReferenceIdeal.Read.val_main_v26 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1_1 (StableHlo.after hostOps1 (W3 m c)) (Proc.devRef .tc main_v25) = _
  after_results
  rw [st17, W3_arg4, W3_arg5]
  rfl

/-- After the second region: the second layer. -/
theorem st28 : W6 m c main_v26 = Cert.ReferenceIdeal.Read.val_main_v28 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  unfold W6
  rw [Function.update_self, final1 (Va1 m) c]
  show layer (W5 m c main_arg1) (W5 m c main_v25) = _
  rw [st26, W5_arg1]
  exact (Cert.ReferenceIdeal.RefValue.ref_layer _ _).symm

set_option maxHeartbeats 4000000 in
/-- Before the third region. -/
theorem st37 : W8 m c main_v35 = Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2_1 (StableHlo.after hostOps2 (W6 m c)) (Proc.devRef .tc main_v35) = _
  after_results
  rw [st28, W6_arg4, W6_arg5]
  rfl

/-- After the third region: the third layer. -/
theorem st39 : W9 m c main_v36 = Cert.ReferenceIdeal.Read.val_main_v39 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  unfold W9
  rw [Function.update_self, final2 (Va2 m) c]
  show layer (W8 m c main_arg1) (W8 m c main_v35) = _
  rw [st37, W8_arg1]
  exact (Cert.ReferenceIdeal.RefValue.ref_layer _ _).symm

set_option maxHeartbeats 4000000 in
/-- At the return: the segment sum of the third layer — the reference's result, as a function of the argument arrays. -/
theorem st42 : W10 m c main_v39 = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W9 m c) (Proc.devRef .tc main_v39) = _
  after_results
  rw [st39, W9_arg2]
  rfl

end Cert.KernelIdeal.Adj

end
-- ==== Proof.lean ====
/-
  The certificate of the message-passing network kernel against its jnp reference.

  The network: an embedding lookup `x = embed[fingerprints]`; three layers `h = max(x · W_l + b_l, 0)`,
  `x = h + A · h` with `A` the 16384 × 16384 adjacency matrix; and a segment sum of `x` over the molecules. The kernel
  computes each `h + A · h` in a region of 64 grid points, a tile of 256 rows per point with the whole of `h` resident,
  and everything else by the same host operations as the reference; the reference computes `h + A · h` by one product of
  whole matrices and one sum.

  * The three frames: each program runs to the end, faults nowhere and leaves its argument arrays as launched. For the two
    kernel programs this is the run of @main's ten segments (seven host stretches, three regions); within a region the
    array `h` is read through two windows, so it is held in two halves of the full share for the region's duration. For
    the reference it is its run, the result dropped.
  * `preserves`: the idealization rewrote nothing, and the claim is `True`.
  * `algebraic`: at the ideal instance each region's output array is, index by index, `h[r, j] + Σ_k A[r, k] · h[k, j]` of
    the arrays the region found — row `r` is written by point `r / 256`, and the 64 tiles cover all rows —, which is also
    what the host's product and sum give; the sums run over the same terms in the same order, so no law of arithmetic on
    the extended reals is needed and the finiteness of the inputs is never used. Every other stage is the same term on
    both sides.
-/
import proofs.«110072_j3049426780241_2_alg».proof.Defs
import proofs.«110072_j3049426780241_2_alg».proof.Proof.Gen.Kernel
import proofs.«110072_j3049426780241_2_alg».proof.Proof.Gen.KernelIdeal
import proofs.«110072_j3049426780241_2_alg».proof.Proof.Gen.ReferenceIdeal
import proofs.«110072_j3049426780241_2_alg».proof.Proof.Gen.ReferenceIdeal.Run
import proofs.«110072_j3049426780241_2_alg».proof.Proof.Gen.ReferenceIdeal.Read
import proofs.«110072_j3049426780241_2_alg».proof.Proof.Gen.Pre_finite_inputs
import proofs.«110072_j3049426780241_2_alg».proof.Proof.KRun
import proofs.«110072_j3049426780241_2_alg».proof.Proof.Run
import proofs.«110072_j3049426780241_2_alg».proof.Proof.KVal

noncomputable section

namespace Cert.Proof

open Idealize.ShloMosaic Idealize.ShloMosaic.TcCoe Idealize.SL.Sem

/-- The word-level kernel runs, and its arguments end as launched. -/
theorem frame_k : @Cert.frame_Kernel Cert.Kernel.Gen.facts Cert.Pre_finite_inputs.Gen.facts :=
  fun m ρ _ => Cert.Kernel.Adj.frame (F := Bits) m ρ

/-- The idealized kernel runs, and its arguments end as launched. -/
theorem frame_ki : @Cert.frame_KernelIdeal Cert.KernelIdeal.Gen.facts Cert.Pre_finite_inputs.Gen.facts :=
  fun m ρ _ => Cert.KernelIdeal.Adj.frame (F := Ideal) m ρ

/-- The reference runs, and its arguments end as launched: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories agreeing on the arguments, both programs end with the same result: the kernel's
    last boundary contents at the result buffer, which is the reference's result stage of the same arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Adj.W10 m c Cert.KernelIdeal.main_v39, ?_, ?_⟩
  · refine (θ_run Cert.KernelIdeal.defs _ _).mono (fun r h c => ?_) (Cert.KernelIdeal.Adj.run_all (F := Ideal) m ρ)
    obtain ⟨e0, e1, e2, e3, e4, e5⟩ := Cert.KernelIdeal.Adj.W10_arg m c
    exact ⟨h c _ (Cert.KernelIdeal.Adj.mem_uc Cert.KernelIdeal.main_v39 (by decide)),
      (h c _ (Cert.KernelIdeal.Adj.mem_uc Cert.KernelIdeal.main_arg0 (by decide))).trans e0,
      (h c _ (Cert.KernelIdeal.Adj.mem_uc Cert.KernelIdeal.main_arg1 (by decide))).trans e1,
      (h c _ (Cert.KernelIdeal.Adj.mem_uc Cert.KernelIdeal.main_arg2 (by decide))).trans e2,
      (h c _ (Cert.KernelIdeal.Adj.mem_uc Cert.KernelIdeal.main_arg3 (by decide))).trans e3,
      (h c _ (Cert.KernelIdeal.Adj.mem_uc Cert.KernelIdeal.main_arg4 (by decide))).trans e4,
      (h c _ (Cert.KernelIdeal.Adj.mem_uc Cert.KernelIdeal.main_arg5 (by decide))).trans e5⟩
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v42_eq, (hagree c).1, (hagree c).2.1, (hagree c).2.2.1, (hagree c).2.2.2.1, (hagree c).2.2.2.2.1, (hagree c).2.2.2.2.2]
    exact (Cert.KernelIdeal.Adj.st42 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
